-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x16 : Shape := ⟨2, ![800000, 16]⟩
abbrev S80x64 : Shape := ⟨2, ![80, 64]⟩
abbrev S64 : Shape := ⟨1, ![64]⟩
abbrev S64x64 : Shape := ⟨2, ![64, 64]⟩
abbrev S80x32 : Shape := ⟨2, ![80, 32]⟩
abbrev S32 : Shape := ⟨1, ![32]⟩
abbrev S64x32 : Shape := ⟨2, ![64, 32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S80x64 : S_.BroadcastsInDim S80x64 (![] : Fin 0 → Fin S80x64.rank)
  reducesTo_S80x64_S_d0_1 : S80x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S80x32 : S_.BroadcastsInDim S80x32 (![] : Fin 0 → Fin S80x32.rank)
  reducesTo_S80x32_S_d0_1 : S80x32.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S32 .f32) (main_arg13 : FVec F S64x32 .f32) (main_arg14 : FVec F S32 .f32) (main_v48 : IVec S_ 1) (main_v49 : FVec F S80x32 .f32) (main_v50 : FVec F S80x32 .f32) : IVec S_ 1 :=
  let main_v51 : IVec S80x32 1 := cmpf .olt main_v49 main_v50
  let main_c_19 : IVec S_ 1 := constantI S_ 1 1#1
  let main_v52 : IVec S_ 1 := (fun x v => Host.reduce IntOp.andi x v reducesTo_S80x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S64x32 .f32 := Host.absf main_arg13
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg8 : FVec F S64 .f32) (main_arg9 : FVec F S64 .f32) (main_arg10 : FVec F S64 .f32) (main_arg11 : FVec F S80x32 .f32) (main_arg12 : FVec F S32 .f32) (main_arg13 : FVec F S64x32 .f32) (main_arg14 : FVec F S32 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S80x32 .f32 := Host.absf main_arg11
  let main_cst_18 : FVec F S_ .f32 := constant S_ .f32 0x7F800000#32
  let main_v50 : FVec F S80x32 .f32 := broadcastInDim S80x32 ![] bcast_S_S80x32 main_cst_18
  fn_part3 (F := F) main_arg12 main_arg13 main_arg14 main_v48 main_v49 main_v50

def fn_part1 {F : FTy → Type} [FloatOps F] (main_arg5 : FVec F S64x64 .f32) (main_arg6 : FVec F S64 .f32) (main_arg7 : FVec F S64 .f32) (main_arg8 : FVec F S64 .f32) (main_arg9 : FVec F S64 .f32) (main_arg10 : FVec F S64 .f32) (main_arg11 : FVec F S80x32 .f32) (main_arg12 : FVec F S32 .f32) (main_arg13 : FVec F S64x32 .f32) (main_arg14 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x64 .f32) (main_arg1 : IVec S2x800000 32) (main_arg2 : FVec F S800000x16 .f32) (main_arg3 : FVec F S80x64 .f32) (main_arg4 : FVec F S64 .f32) (main_arg5 : FVec F S64x64 .f32) (main_arg6 : FVec F S64 .f32) (main_arg7 : FVec F S64 .f32) (main_arg8 : FVec F S64 .f32) (main_arg9 : FVec F S64 .f32) (main_arg10 : FVec F S64 .f32) (main_arg11 : FVec F S80x32 .f32) (main_arg12 : FVec F S32 .f32) (main_arg13 : FVec F S64x32 .f32) (main_arg14 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S80x64 .f32 := Host.absf main_arg3
  let main_cst_2 : FVec F S_ .f32 := constant S_ .f32 0x7F800000#32
  let main_v10 : FVec F S80x64 .f32 := broadcastInDim S80x64 ![] bcast_S_S80x64 main_cst_2
  let main_v11 : IVec S80x64 1 := cmpf .olt main_v9 main_v10
  let main_c_3 : IVec S_ 1 := constantI S_ 1 1#1
  let main_v12 : IVec S_ 1 := (fun x v => Host.reduce IntOp.andi x v reducesTo_S80x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x64 : Shape := ⟨2, ![50000, 64]⟩
abbrev S2x800000 : Shape := ⟨2, ![2, 800000]⟩
abbrev S800000x16 : Shape := ⟨2, ![800000, 16]⟩
abbrev S80x64 : Shape := ⟨2, ![80, 64]⟩
abbrev S64 : Shape := ⟨1, ![64]⟩
abbrev S64x64 : Shape := ⟨2, ![64, 64]⟩
abbrev S80x32 : Shape := ⟨2, ![80, 32]⟩
abbrev S32 : Shape := ⟨1, ![32]⟩
abbrev S64x32 : Shape := ⟨2, ![64, 32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S16x64 : Shape := ⟨2, ![16, 64]⟩
abbrev S1x64 : Shape := ⟨2, ![1, 64]⟩
abbrev S8000x64 : Shape := ⟨2, ![8000, 64]⟩
abbrev S8000x16 : Shape := ⟨2, ![8000, 16]⟩
abbrev S5000x64 : Shape := ⟨2, ![5000, 64]⟩
abbrev S16x32 : Shape := ⟨2, ![16, 32]⟩
abbrev S1x32 : Shape := ⟨2, ![1, 32]⟩
abbrev S800000x32 : Shape := ⟨2, ![800000, 32]⟩
abbrev S8000x32 : Shape := ⟨2, ![8000, 32]⟩
abbrev S50000x32 : Shape := ⟨2, ![50000, 32]⟩
abbrev S5000x32 : Shape := ⟨2, ![5000, 32]⟩

abbrev nBuf : Space → Nat
  | .hbm => 65
  | .vmem => 38
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x16, .f32⟩
  | .hbm, ⟨3, _⟩ => ⟨S80x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S80x32, .f32⟩
  | .hbm, ⟨12, _⟩ => ⟨S32, .f32⟩
  | .hbm, ⟨13, _⟩ => ⟨S64x32, .f32⟩
  | .hbm, ⟨14, _⟩ => ⟨S32, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S64x64, .f32⟩
  | .hbm, ⟨29, _⟩ => ⟨S16x64, .f32⟩
  | .hbm, ⟨30, _⟩ => ⟨S1x64, .f32⟩
  | .hbm, ⟨31, _⟩ => ⟨S800000x64, .f32⟩
  | .hbm, ⟨32, _⟩ => ⟨S_, .f32⟩
  | .hbm, ⟨33, _⟩ => ⟨S50000x64, .f32⟩
  | .hbm, ⟨34, _⟩ => ⟨S800000x1, .i32⟩
  | .hbm, ⟨35, _⟩ => ⟨S50000x64, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S50000x64, .f32⟩
  | .hbm, ⟨42, _⟩ => ⟨S1x800000, .i32⟩
  | .hbm, ⟨43, _⟩ => ⟨S800000, .i32⟩
  | .hbm, ⟨44, _⟩ => ⟨S1x800000, .i32⟩
  | .hbm, ⟨45, _⟩ => ⟨S800000, .i32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S64x32, .f32⟩
  | .hbm, ⟨56, _⟩ => ⟨S16x32, .f32⟩
  | .hbm, ⟨57, _⟩ => ⟨S1x32, .f32⟩
  | .hbm, ⟨58, _⟩ => ⟨S800000x32, .f32⟩
  | .hbm, ⟨59, _⟩ => ⟨S_, .f32⟩
  | .hbm, ⟨60, _⟩ => ⟨S50000x32, .f32⟩
  | .hbm, ⟨61, _⟩ => ⟨S800000x1, .i32⟩
  | .hbm, ⟨62, _⟩ => ⟨S50000x32, .f32⟩
  | .hbm, ⟨63, _⟩ => ⟨S1x32, .f32⟩
  | .hbm, ⟨64, _⟩ => ⟨S50000x32, .f32⟩
  | .local _ .vmem, ⟨0, _⟩ => ⟨S8000x64, .f32⟩
  | .local _ .vmem, ⟨1, _⟩ => ⟨S8000x64, .f32⟩
  | .local _ .vmem, ⟨2, _⟩ => ⟨S8000x16, .f32⟩
  | .local _ .vmem, ⟨3, _⟩ => ⟨S8000x16, .f32⟩
  | .local _ .vmem, ⟨4, _⟩ => ⟨S64x64, .f32⟩
  | .local _ .vmem, ⟨5, _⟩ => ⟨S16x64, .f32⟩
  | .local _ .vmem, ⟨6, _⟩ => ⟨S1x64, .f32⟩
  | .local _ .vmem, ⟨7, _⟩ => ⟨S8000x64, .f32⟩
  | .local _ .vmem, ⟨8, _⟩ => ⟨S8000x64, .f32⟩
  | .local _ .vmem, ⟨9, _⟩ => ⟨S5000x64, .f32⟩
  | .local _ .vmem, ⟨10, _⟩ => ⟨S5000x64, .f32⟩
  | .local _ .vmem, ⟨11, _⟩ => ⟨S64x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S8000x64, .f32⟩
  | .local _ .vmem, ⟨22, _⟩ => ⟨S8000x64, .f32⟩
  | .local _ .vmem, ⟨23, _⟩ => ⟨S8000x16, .f32⟩
  | .local _ .vmem, ⟨24, _⟩ => ⟨S8000x16, .f32⟩
  | .local _ .vmem, ⟨25, _⟩ => ⟨S64x32, .f32⟩
  | .local _ .vmem, ⟨26, _⟩ => ⟨S16x32, .f32⟩
  | .local _ .vmem, ⟨27, _⟩ => ⟨S1x32, .f32⟩
  | .local _ .vmem, ⟨28, _⟩ => ⟨S8000x32, .f32⟩
  | .local _ .vmem, ⟨29, _⟩ => ⟨S8000x32, .f32⟩
  | .local _ .vmem, ⟨30, _⟩ => ⟨S5000x64, .f32⟩
  | .local _ .vmem, ⟨31, _⟩ => ⟨S5000x64, .f32⟩
  | .local _ .vmem, ⟨32, _⟩ => ⟨S64x32, .f32⟩
  | .local _ .vmem, ⟨33, _⟩ => ⟨S1x32, .f32⟩
  | .local _ .vmem, ⟨34, _⟩ => ⟨S5000x32, .f32⟩
  | .local _ .vmem, ⟨35, _⟩ => ⟨S5000x32, .f32⟩
  | .local _ .vmem, ⟨36, _⟩ => ⟨S5000x32, .f32⟩
  | .local _ .vmem, ⟨37, _⟩ => ⟨S5000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_1 : Ref sig .tc := ⟨.hbm, 46, rfl⟩
abbrev main_v28 : Ref sig .tc := ⟨.hbm, 47, rfl⟩
abbrev main_v29 : Ref sig .tc := ⟨.hbm, 48, rfl⟩
abbrev main_c_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_3 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35
abbrev cc3_sem4_0 : DmaSem sig := 36
abbrev cc3_sem4_1 : DmaSem sig := 37

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S80x64_S64x64_0_0 : S80x64.Slices ![0, 0] S64x64
  slices_S80x64_S16x64_64_0 : S80x64.Slices ![64, 0] S16x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S8000x16_S8000x16_0_0 : ∀ a, (![0, 0] : Fin 2 → Nat) a + S8000x16.size a ≤ S8000x16.size a
  h_S8000x16 : 0 < S8000x16.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  broadcasts_S1x64_S5000x64 : S1x64.Broadcasts S5000x64
  shapeCasts_S5000x64_S5000x64 : S5000x64.ShapeCasts S5000x64
  slices_S80x32_S64x32_0_0 : S80x32.Slices ![0, 0] S64x32
  slices_S80x32_S16x32_64_0 : S80x32.Slices ![64, 0] S16x32
  shapeCasts_S32_S1x32 : S32.ShapeCasts S1x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  bcast_S_S50000x32 : S_.BroadcastsInDim S50000x32 (![] : Fin 0 → Fin S50000x32.rank)
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  dot_S8000x16_S16x64_S8000x64_1_0_0_1_n_n_wf : DotDims.WF S8000x16 S16x64 S8000x64 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S8000x64_S64x32_S8000x32_1_0_0_1_n_n_wf : DotDims.WF S8000x64 S64x32 S8000x32 [1] [0] [0] [1] [] []
  dot_S8000x16_S16x32_S8000x32_1_0_0_1_n_n_wf : DotDims.WF S8000x16 S16x32 S8000x32 [1] [0] [0] [1] [] []
  scatter_S50000x32_S800000x1_S800000x32_1_0_0_1_wf : ScatterDims.WF S50000x32 S800000x1 S800000x32 [1] [0] [0] 1
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x16.size a ≤ S800000x16.size a
  hwx0_1 : ∀ i : grid0.Coords, EltTy.bits .f32 = 32 ∨ (Rect.block (s := S800000x16) S8000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S800000x64.size a
  hwx0_5 : ∀ i : grid0.Coords, EltTy.bits .f32 = 32 ∨ (Rect.block (s := S800000x64) S8000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S50000x64.size a
  hwx1_8 : ∀ i : grid1.Coords, EltTy.bits .f32 = 32 ∨ (Rect.block (s := S50000x64) S5000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S800000x64.size a
  hwx2_0 : ∀ i : grid2.Coords, EltTy.bits .f32 = 32 ∨ (Rect.block (s := S800000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x16.size a ≤ S800000x16.size a
  hwx2_1 : ∀ i : grid2.Coords, EltTy.bits .f32 = 32 ∨ (Rect.block (s := S800000x16) S8000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x32.size a ≤ S16x32.size a
  hwx2_3 : ∀ i : grid2.Coords, EltTy.bits .f32 = 32 ∨ (Rect.block (s := S16x32) S16x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x32.size a ≤ S800000x32.size a
  hwx2_5 : ∀ i : grid2.Coords, EltTy.bits .f32 = 32 ∨ (Rect.block (s := S800000x32) S8000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x32.size a ≤ S50000x32.size a
  hwx3_3 : ∀ i : grid3.Coords, EltTy.bits .f32 = 32 ∨ (Rect.block (s := S50000x32) S5000x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x32.size a ≤ S50000x32.size a
  hwx3_4 : ∀ i : grid3.Coords, EltTy.bits .f32 = 32 ∨ (Rect.block (s := S50000x32) S5000x32.size (cc3_transform_4 i) (hinb3_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x16_S16x64_S8000x64_1_0_0_1_n_n : DotDims S8000x16 S16x64 S8000x64 where
  lhsContracting := [1]
  rhsContracting := [0]
  lhsNonContracting := [0]
  rhsNonContracting := [1]
  lhsBatch := []
  rhsBatch := []
  wf := dot_S8000x16_S16x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def dot_S8000x16_S16x32_S8000x32_1_0_0_1_n_n : DotDims S8000x16 S16x32 S8000x32 where
  lhsContracting := [1]
  rhsContracting := [0]
  lhsNonContracting := [0]
  rhsNonContracting := [1]
  lhsBatch := []
  rhsBatch := []
  wf := dot_S8000x16_S16x32_S8000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v10) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v34) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S8000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S16x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S8000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v23) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S5000x32.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v43) S5000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x16 : Shape := ⟨2, ![800000, 16]⟩
abbrev S80x64 : Shape := ⟨2, ![80, 64]⟩
abbrev S64 : Shape := ⟨1, ![64]⟩
abbrev S64x64 : Shape := ⟨2, ![64, 64]⟩
abbrev S80x32 : Shape := ⟨2, ![80, 32]⟩
abbrev S32 : Shape := ⟨1, ![32]⟩
abbrev S64x32 : Shape := ⟨2, ![64, 32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x80 : Shape := ⟨2, ![800000, 80]⟩
abbrev S1x64 : Shape := ⟨2, ![1, 64]⟩
abbrev S800000x32 : Shape := ⟨2, ![800000, 32]⟩
abbrev S1x32 : Shape := ⟨2, ![1, 32]⟩
abbrev S50000x32 : Shape := ⟨2, ![50000, 32]⟩

abbrev nBuf : Space → Nat
  | .hbm => 88
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x16, .f32⟩
  | .hbm, ⟨3, _⟩ => ⟨S80x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S80x32, .f32⟩
  | .hbm, ⟨12, _⟩ => ⟨S32, .f32⟩
  | .hbm, ⟨13, _⟩ => ⟨S64x32, .f32⟩
  | .hbm, ⟨14, _⟩ => ⟨S32, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S800000x80, .f32⟩
  | .hbm, ⟨29, _⟩ => ⟨S800000x64, .f32⟩
  | .hbm, ⟨30, _⟩ => ⟨S1x64, .f32⟩
  | .hbm, ⟨31, _⟩ => ⟨S800000x64, .f32⟩
  | .hbm, ⟨32, _⟩ => ⟨S800000x64, .f32⟩
  | .hbm, ⟨33, _⟩ => ⟨S_, .f32⟩
  | .hbm, ⟨34, _⟩ => ⟨S50000x64, .f32⟩
  | .hbm, ⟨35, _⟩ => ⟨S800000x1, .i32⟩
  | .hbm, ⟨36, _⟩ => ⟨S50000x64, .f32⟩
  | .hbm, ⟨37, _⟩ => ⟨S50000x64, .f32⟩
  | .hbm, ⟨38, _⟩ => ⟨S1x64, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S50000x64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S1x64, .f32⟩
  | .hbm, ⟨50, _⟩ => ⟨S50000x64, .f32⟩
  | .hbm, ⟨51, _⟩ => ⟨S50000x64, .f32⟩
  | .hbm, ⟨52, _⟩ => ⟨S1x64, .f32⟩
  | .hbm, ⟨53, _⟩ => ⟨S50000x64, .f32⟩
  | .hbm, ⟨54, _⟩ => ⟨S50000x64, .f32⟩
  | .hbm, ⟨55, _⟩ => ⟨S1x64, .f32⟩
  | .hbm, ⟨56, _⟩ => ⟨S50000x64, .f32⟩
  | .hbm, ⟨57, _⟩ => ⟨S50000x64, .f32⟩
  | .hbm, ⟨58, _⟩ => ⟨S_, .f32⟩
  | .hbm, ⟨59, _⟩ => ⟨S50000x64, .f32⟩
  | .hbm, ⟨60, _⟩ => ⟨S50000x64, .f32⟩
  | .hbm, ⟨61, _⟩ => ⟨S1x800000, .i32⟩
  | .hbm, ⟨62, _⟩ => ⟨S800000, .i32⟩
  | .hbm, ⟨63, _⟩ => ⟨S1x800000, .i32⟩
  | .hbm, ⟨64, _⟩ => ⟨S800000, .i32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x64, .f32⟩
  | .hbm, ⟨74, _⟩ => ⟨S800000x80, .f32⟩
  | .hbm, ⟨75, _⟩ => ⟨S800000x32, .f32⟩
  | .hbm, ⟨76, _⟩ => ⟨S1x32, .f32⟩
  | .hbm, ⟨77, _⟩ => ⟨S800000x32, .f32⟩
  | .hbm, ⟨78, _⟩ => ⟨S800000x32, .f32⟩
  | .hbm, ⟨79, _⟩ => ⟨S_, .f32⟩
  | .hbm, ⟨80, _⟩ => ⟨S50000x32, .f32⟩
  | .hbm, ⟨81, _⟩ => ⟨S800000x1, .i32⟩
  | .hbm, ⟨82, _⟩ => ⟨S50000x32, .f32⟩
  | .hbm, ⟨83, _⟩ => ⟨S50000x32, .f32⟩
  | .hbm, ⟨84, _⟩ => ⟨S1x32, .f32⟩
  | .hbm, ⟨85, _⟩ => ⟨S50000x32, .f32⟩
  | .hbm, ⟨86, _⟩ => ⟨S50000x32, .f32⟩
  | .hbm, ⟨87, _⟩ => ⟨S50000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_1 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call0_cst : Ref sig .tc := ⟨.hbm, 58, rfl⟩
abbrev main_call0_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_2 : Ref sig .tc := ⟨.hbm, 65, rfl⟩
abbrev main_v44 : Ref sig .tc := ⟨.hbm, 66, rfl⟩
abbrev main_v45 : Ref sig .tc := ⟨.hbm, 67, rfl⟩
abbrev main_c_3 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_4 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x16_S800000x80_d1 : Shape.Concatenates [S800000x64, S800000x16] S800000x80 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S50000x32 : S_.BroadcastsInDim S50000x32 (![] : Fin 0 → Fin S50000x32.rank)
  bcast_S1x32_S50000x32_0_1 : S1x32.BroadcastsInDim S50000x32 (![0, 1] : Fin 2 → Fin S50000x32.rank)
  gather_S50000x64_S800000x1_S800000x64_1_0_n_n_0_1_164_wf : GatherDims.WF S50000x64 S800000x1 S800000x64 [1] [0] [] [0] [] 1 ![1, 64]
  dot_S800000x80_S80x64_S800000x64_1_0_0_1_n_n_wf : DotDims.WF S800000x80 S80x64 S800000x64 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S800000x80_S80x32_S800000x32_1_0_0_1_n_n_wf : DotDims.WF S800000x80 S80x32 S800000x32 [1] [0] [0] [1] [] []
  scatter_S50000x32_S800000x1_S800000x32_1_0_0_1_wf : ScatterDims.WF S50000x32 S800000x1 S800000x32 [1] [0] [0] 1
  dot_S50000x64_S64x32_S50000x32_1_0_0_1_n_n_wf : DotDims.WF S50000x64 S64x32 S50000x32 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x80_S80x64_S800000x64_1_0_0_1_n_n : DotDims S800000x80 S80x64 S800000x64 where
  lhsContracting := [1]
  rhsContracting := [0]
  lhsNonContracting := [0]
  rhsNonContracting := [1]
  lhsBatch := []
  rhsBatch := []
  wf := dot_S800000x80_S80x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x80_S80x32_S800000x32_1_0_0_1_n_n : DotDims S800000x80 S80x32 S800000x32 where
  lhsContracting := [1]
  rhsContracting := [0]
  lhsNonContracting := [0]
  rhsNonContracting := [1]
  lhsBatch := []
  rhsBatch := []
  wf := dot_S800000x80_S80x32_S800000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf

class Facts : Prop extends Facts₀ where

variable [Facts]
-- ==== Proof.KernelRun.lean ====
/-
  The idealized kernel program's run with its result named.

  The program is four kernel launches among stretches of host operations.  The generated frame follows the memory
  through the program as a chain of valuations `W0 … W8` (one per boundary between a stretch and a launch) and ends
  with every unscoped buffer holding `W8`; its statement keeps only the argument arrays.  Here the same run is
  stated with the whole last valuation in the post, and from it the result array: what the last launch's
  write-backs leave in its output window's array, the arguments as launched.
-/
import proofs.«109759_j82265803588044_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every
    core at the last boundary's contents `W8`. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run with the result array named: the last launch's output window's array after its write-backs, the
    fifteen argument arrays as launched. -/
theorem run_result : θ_run defs (onTc (τ := τ) (main (F := F))) ⟨m, fun _ => 0, ρ⟩ (fun r => ∀ c : Dev nD,
      r.2.mem ((c.tc : Thread nD τ).loc main_v43) = (dat3 (V7 m ρ) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v43 (by decide))).trans (W8_arr m ρ c 4),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c)⟩)
    (run_boundary m ρ)

end Cert.KernelIdeal.RunValue

end
-- ==== Proof.LayerSpec.lean ====
/-
  One graph-network layer, entry by entry, over the extended reals.

  A layer sends along every edge `e` the message  m(e, ·) = [x(src e, ·), a(e, ·)] · W + b  (the source node's
  features joined with the edge's own, through one linear map), adds up at every node the messages of the edges that
  end there, and adds that to the node's own linear map  x(n, ·) · U + c.  The first layer then normalises every
  feature with fixed statistics and clips at zero.  The gather of the source rows and the sum over incoming edges are
  the same host operations on both sides of the claim; what differs is how the dense parts are arranged.  This file
  states the dense parts as the tiled program computes them: the joined product as TWO products, one with the first
  64 rows of `W` and one with the last 16.
-/
import Idealize.ShloMosaic.PureOps.Ideal
import Idealize.ShloMosaic.Lib.ValueIdx

noncomputable section

namespace Cert.Gnn

open Idealize.ShloMosaic Idealize.ShloMosaic.ValueIdx

/-- A matrix of extended reals. -/
abbrev Mat (a b : Nat) : Type := (⟨2, ![a, b]⟩ : Shape).Idx → EReal

/-- Row `i 0` of a matrix index, as a number below the first extent. -/
abbrev r0 {a b : Nat} (i : (⟨2, ![a, b]⟩ : Shape).Idx) : Fin a := ⟨(i 0).val, idx2_lt0 i⟩
/-- Column `i 1` of a matrix index, as a number below the second extent. -/
abbrev c1 {a b : Nat} (i : (⟨2, ![a, b]⟩ : Shape).Idx) : Fin b := ⟨(i 1).val, idx2_lt1 i⟩

/-- The message of edge `e` at feature `j`: the gathered source row times the first 64 rows of the weight, plus
    the edge's own features times the last 16 rows, plus the bias. -/
def edgeMsg {E N : Nat} (xs : Mat E 64) (ea : Mat E 16) (wx : Mat 64 N) (we : Mat 16 N) (b : Mat 1 N) : Mat E N :=
  fun i => ((∑ k : Fin 64, xs (ix2 (r0 i) k) * wx (ix2 k (c1 i))) + ∑ k : Fin 16, ea (ix2 (r0 i) k) * we (ix2 k (c1 i)))
    + b (ix2 (0 : Fin 1) (c1 i))

/-- A node's new features without normalisation: its own linear map plus the summed messages. -/
def nodeOut {M N : Nat} (h : Mat M 64) (w : Mat 64 N) (b : Mat 1 N) (agg : Mat M N) : Mat M N :=
  fun i => ((∑ k : Fin 64, h (ix2 (r0 i) k) * w (ix2 k (c1 i))) + b (ix2 (0 : Fin 1) (c1 i))) + agg i

/-- The first layer's node update: the same, then every feature shifted by its mean, scaled by the reciprocal
    square root of its variance plus the smoothing constant, scaled and shifted again, and clipped at zero. -/
def nodeNormRelu {M : Nat} (x : Mat M 64) (w : Mat 64 64) (b : Mat 1 64) (agg : Mat M 64)
    (gamma beta mean var : Mat 1 64) : Mat M 64 :=
  fun i => max
    ((((nodeOut x w b agg i - mean (ix2 (0 : Fin 1) (c1 i)))
        * Ideal.rsqrt (var (ix2 (0 : Fin 1) (c1 i)) + Ideal.ofBits .f32 0x3727C5AC#32))
      * gamma (ix2 (0 : Fin 1) (c1 i))) + beta (ix2 (0 : Fin 1) (c1 i)))
    (Ideal.ofBits .f32 0x00000000#32)

end Cert.Gnn

end
-- ==== Proof.EdgeMsg0.lean ====
/-
  Launch 0 of the idealized kernel program: the edge messages of layer 1, as ONE function of the arrays the launch
  finds.

  The launch walks the 800000 edges in 100 blocks of 8000 rows.  At every block it multiplies the block's gathered
  source rows with the first 64 weight rows, the block's edge features with the last 16, adds the two products and
  the bias row, and writes the block back.  Read at an entry (e, j) this is
      ∑ₖ xs(e, k) · wx(k, j)  +  ∑ₖ ea(e, k) · we(k, j)  +  b(0, j),
  whatever block `e` lies in; the blocks tile the array, so the array after the launch is that function everywhere.
-/
import proofs.«109759_j82265803588044_2_alg».proof.Proof.Gen.KernelIdeal.Frame
import proofs.«109759_j82265803588044_2_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeMsg0

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

/-! ## The two matrix products of the body, entry by entry -/

theorem lhsx_0 (i : S8000x64.Idx) (q : dot_S8000x64_S64x64_S8000x64_1_0_0_1_n_n.contr.Idx) : (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem rhsx_1 (i : S8000x64.Idx) (q : dot_S8000x64_S64x64_S8000x64_1_0_0_1_n_n.contr.Idx) : (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl
theorem lhse_0 (i : S8000x64.Idx) (q : dot_S8000x16_S16x64_S8000x64_1_0_0_1_n_n.contr.Idx) : (dot_S8000x16_S16x64_S8000x64_1_0_0_1_n_n.lhsIdx i q 0).val = (i 0).val := by
  unfold DotDims.lhsIdx
  rw [dif_neg (show ¬(0 : Fin S8000x16.rank) ∈ dot_S8000x16_S16x64_S8000x64_1_0_0_1_n_n.lhsBatch by decide), dif_pos (show (0 : Fin S8000x16.rank) ∈ dot_S8000x16_S16x64_S8000x64_1_0_0_1_n_n.lhsNonContracting by decide)]
  rfl
theorem rhse_1 (i : S8000x64.Idx) (q : dot_S8000x16_S16x64_S8000x64_1_0_0_1_n_n.contr.Idx) : (dot_S8000x16_S16x64_S8000x64_1_0_0_1_n_n.rhsIdx i q 1).val = (i 1).val := by
  unfold DotDims.rhsIdx
  rw [dif_neg (show ¬(1 : Fin S16x64.rank) ∈ dot_S8000x16_S16x64_S8000x64_1_0_0_1_n_n.rhsBatch by decide), dif_pos (show (1 : Fin S16x64.rank) ∈ dot_S8000x16_S16x64_S8000x64_1_0_0_1_n_n.rhsNonContracting by decide)]
  rfl

/-- The product of a block of source rows with the first 64 weight rows, into a zero accumulator: row times column. -/
theorem mm_x (l : FVec Ideal S8000x64 .bf16) (r : FVec Ideal S64x64 .bf16) (p : Fin 8000) (q : Fin 64) :
    matmul dot_S8000x64_S64x64_S8000x64_1_0_0_1_n_n none l r (constant S8000x64 .f32 0x00000000#32) (ix2 p q) = ∑ k : Fin 64, l (ix2 p k) * r (ix2 k q) := by
  refine (Ideal.matmul_constant_zero_apply dot_S8000x64_S64x64_S8000x64_1_0_0_1_n_n none l r (ix2 p q)).trans ?_
  rw [← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p q) ((contrEquiv1 dot_S8000x64_S64x64_S8000x64_1_0_0_1_n_n 64 rfl rfl).symm k) = ix2 p k := funext fun a => Fin.ext (by
    match a with
    | ⟨0, _⟩ => exact lhsx_0 _ _
    | ⟨1, _⟩ => exact (dot_S8000x64_S64x64_S8000x64_1_0_0_1_n_n.lhsIdx_val_of_single rfl _ _).trans hk)
  have er : dot_S8000x64_S64x64_S8000x64_1_0_0_1_n_n.rhsIdx (ix2 p q) ((contrEquiv1 dot_S8000x64_S64x64_S8000x64_1_0_0_1_n_n 64 rfl rfl).symm k) = ix2 k q := funext fun a => Fin.ext (by
    match a with
    | ⟨0, _⟩ => exact (dot_S8000x64_S64x64_S8000x64_1_0_0_1_n_n.rhsIdx_val_of_single rfl _ _).trans hk
    | ⟨1, _⟩ => exact rhsx_1 _ _)
  rw [el, er]

/-- The product of a block of edge features with the last 16 weight rows, into a zero accumulator. -/
theorem mm_e (l : FVec Ideal S8000x16 .bf16) (r : FVec Ideal S16x64 .bf16) (p : Fin 8000) (q : Fin 64) :
    matmul dot_S8000x16_S16x64_S8000x64_1_0_0_1_n_n none l r (constant S8000x64 .f32 0x00000000#32) (ix2 p q) = ∑ k : Fin 16, l (ix2 p k) * r (ix2 k q) := by
  refine (Ideal.matmul_constant_zero_apply dot_S8000x16_S16x64_S8000x64_1_0_0_1_n_n none l r (ix2 p q)).trans ?_
  rw [← Equiv.sum_comp (contrEquiv1 dot_S8000x16_S16x64_S8000x64_1_0_0_1_n_n 16 rfl rfl).symm]
  refine Finset.sum_congr rfl fun k _ => ?_
  have hk := contrEquiv1_symm_val dot_S8000x16_S16x64_S8000x64_1_0_0_1_n_n 16 rfl rfl k
  have el : dot_S8000x16_S16x64_S8000x64_1_0_0_1_n_n.lhsIdx (ix2 p q) ((contrEquiv1 dot_S8000x16_S16x64_S8000x64_1_0_0_1_n_n 16 rfl rfl).symm k) = ix2 p k := funext fun a => Fin.ext (by
    match a with
    | ⟨0, _⟩ => exact lhse_0 _ _
    | ⟨1, _⟩ => exact (dot_S8000x16_S16x64_S8000x64_1_0_0_1_n_n.lhsIdx_val_of_single rfl _ _).trans hk)
  have er : dot_S8000x16_S16x64_S8000x64_1_0_0_1_n_n.rhsIdx (ix2 p q) ((contrEquiv1 dot_S8000x16_S16x64_S8000x64_1_0_0_1_n_n 16 rfl rfl).symm k) = ix2 k q := funext fun a => Fin.ext (by
    match a with
    | ⟨0, _⟩ => exact (dot_S8000x16_S16x64_S8000x64_1_0_0_1_n_n.rhsIdx_val_of_single rfl _ _).trans hk
    | ⟨1, _⟩ => exact rhse_1 _ _)
  rw [el, er]

/-- What the body stores, at row `p` and column `q` of the block: the two products and the bias row's entry. -/
theorem stored_apply (x0 : Vec Ideal S8000x64 .f32) (x1 : Vec Ideal S8000x16 .f32) (x2 : Vec Ideal S64x64 .f32) (x3 : Vec Ideal S16x64 .f32)
    (x4 : Vec Ideal S1x64 .f32) (p : Fin 8000) (q : Fin 64) :
    k0_pay1 (F := Ideal) x0 x1 x2 x3 x4 (ix2 p q)
      = ((∑ k : Fin 64, x0 (ix2 p k) * x2 (ix2 k q)) + ∑ k : Fin 16, x1 (ix2 p k) * x3 (ix2 k q)) + x4 (ix2 (0 : Fin 1) q) := by
  unfold k0_pay1
  simp only [shapeCast_self]
  exact congrArg₂ (· + ·) (congrArg₂ (· + ·) (mm_x _ _ p q) (mm_e _ _ p q)) (broadcastTo_1b_ab_apply x4 _ p q)

/-! ## The blocks -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block `t`, the weights and the bias at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 100 := Nat.lt_of_lt_of_eq t.isLt N_0

/-- Row `p` of block `t`, as a row of the whole array. -/
def row (t : Fin cfg0.N) (p : Fin 8000) : Fin 800000 := ⟨t.val * 8000 + p.val, by have := point_lt t; omega⟩

/-- Block `t` of the gathered source rows, read at (p, k), is the array at (row t p, k). -/
theorem read_xs (c : Dev nD) (t : Fin cfg0.N) (p : Fin 8000) (k : Fin 64) :
    iblk0 V c 0 t (ix2 p k) = V c main_v10 (ix2 (row t p) k) := by
  obtain ⟨e0, e1, -⟩ := idx_facts t
  show V c main_v10 (((cfg0.win 0).blk t).view.emb (ix2 p k)) = V c main_v10 (ix2 (row t p) k)
  refine congrArg _ (funext fun a => Fin.ext ?_)
  match a with
  | ⟨0, _⟩ => show win0_0.index t (0 : Fin 2) * 8000 + 1 * p.val = t.val * 8000 + p.val; rw [e0]; omega
  | ⟨1, _⟩ => show win0_0.index t (1 : Fin 2) * 64 + 1 * k.val = k.val; rw [e1]; omega

/-- Block `t` of the edge features, read at (p, k), is the array at (row t p, k). -/
theorem read_ea (c : Dev nD) (t : Fin cfg0.N) (p : Fin 8000) (k : Fin 16) :
    iblk0 V c 1 t (ix2 p k) = V c main_arg2 (ix2 (row t p) k) := by
  obtain ⟨-, -, e0, e1, -⟩ := idx_facts t
  show V c main_arg2 (((cfg0.win 1).blk t).view.emb (ix2 p k)) = V c main_arg2 (ix2 (row t p) k)
  refine congrArg _ (funext fun a => Fin.ext ?_)
  match a with
  | ⟨0, _⟩ => show win0_1.index t (0 : Fin 2) * 8000 + 1 * p.val = t.val * 8000 + p.val; rw [e0]; omega
  | ⟨1, _⟩ => show win0_1.index t (1 : Fin 2) * 16 + 1 * k.val = k.val; rw [e1]; omega

/-- The one block of the first 64 weight rows is the whole array. -/
theorem read_wx (c : Dev nD) (t : Fin cfg0.N) (k : Fin 64) (q : Fin 64) :
    iblk0 V c 2 t (ix2 k q) = V c main_v11 (ix2 k q) := by
  obtain ⟨-, -, -, -, e0, e1, -⟩ := idx_facts t
  show V c main_v11 (((cfg0.win 2).blk t).view.emb (ix2 k q)) = V c main_v11 (ix2 k q)
  refine congrArg _ (funext fun a => Fin.ext ?_)
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- The one block of the last 16 weight rows is the whole array. -/
theorem read_we (c : Dev nD) (t : Fin cfg0.N) (k : Fin 16) (q : Fin 64) :
    iblk0 V c 3 t (ix2 k q) = V c main_v12 (ix2 k q) := by
  obtain ⟨-, -, -, -, -, -, e0, e1, -⟩ := idx_facts t
  show V c main_v12 (((cfg0.win 3).blk t).view.emb (ix2 k q)) = V c main_v12 (ix2 k q)
  refine congrArg _ (funext fun a => Fin.ext ?_)
  match a with
  | ⟨0, _⟩ => show win0_3.index t (0 : Fin 2) * 16 + 1 * k.val = k.val; rw [e0]; omega
  | ⟨1, _⟩ => show win0_3.index t (1 : Fin 2) * 64 + 1 * q.val = q.val; rw [e1]; omega

/-- The one block of the bias row is the whole array. -/
theorem read_b (c : Dev nD) (t : Fin cfg0.N) (u : Fin 1) (q : Fin 64) :
    iblk0 V c 4 t (ix2 u q) = V c main_v13 (ix2 u q) := by
  obtain ⟨-, -, -, -, -, -, -, -, e0, e1, -⟩ := idx_facts t
  show V c main_v13 (((cfg0.win 4).blk t).view.emb (ix2 u q)) = V c main_v13 (ix2 u q)
  refine congrArg _ (funext fun a => Fin.ext ?_)
  match a with
  | ⟨0, _⟩ => show win0_4.index t (0 : Fin 2) * 1 + 1 * u.val = u.val; rw [e0]; omega
  | ⟨1, _⟩ => show win0_4.index t (1 : Fin 2) * 64 + 1 * q.val = q.val; rw [e1]; omega

/-- Entry (p, q) of the output's block `t` is entry (row t p, q) of the array. -/
theorem emb_out (t : Fin cfg0.N) (p : Fin 8000) (q : Fin 64) :
    ((cfg0.win 5).blk t).view.emb (ix2 p q) = ix2 (row t p) q := by
  obtain ⟨-, -, -, -, -, -, -, -, -, -, e0, e1⟩ := idx_facts t
  refine funext fun a => Fin.ext ?_
  match a with
  | ⟨0, _⟩ => show win0_5.index t (0 : Fin 2) * 8000 + 1 * p.val = t.val * 8000 + p.val; rw [e0]; omega
  | ⟨1, _⟩ => show win0_5.index t (1 : Fin 2) * 64 + 1 * q.val = q.val; rw [e1]; omega

/-- The messages as a function of the arrays the launch finds. -/
abbrev msgs (c : Dev nD) : S800000x64.Idx → EReal :=
  edgeMsg (V c main_v10) (V c main_arg2) (V c main_v11) (V c main_v12) (V c main_v13)

/-- What point `t` writes back is block `t` of the messages. -/
theorem flushed_eq (c : Dev nD) (t : Fin cfg0.N) :
    (dat0 V c).flushed 5 t = ((cfg0.win 5).blk t).view.read (Elt Ideal) (msgs V c) := by
  show (cfg0.win 5).cut (grid0.coords t) ((dat0 V c).after 5 t) = _
  rw [after0_5]
  unfold out0_5
  rw [View.canon_unit_zero hz]
  simp only [View.ld_unit_zero (S := S8000x64) hz, View.ld_unit_zero (S := S8000x16) hz, View.ld_unit_zero (S := S64x64) hz,
    View.ld_unit_zero (S := S16x64) hz, View.ld_unit_zero (S := S1x64) hz]
  funext j
  obtain ⟨p, q, rfl⟩ : ∃ (p : Fin 8000) (q : Fin 64), j = ix2 p q := ⟨j 0, j 1, eq_ix2 j⟩
  refine (stored_apply (iblk0 V c 0 t) (iblk0 V c 1 t) (iblk0 V c 2 t) (iblk0 V c 3 t) (iblk0 V c 4 t) p q).trans ?_
  show _ = msgs V c (((cfg0.win 5).blk t).view.emb (ix2 p q))
  rw [emb_out t p q]
  simp only [read_xs V c t, read_ea V c t, read_wx V c t, read_we V c t, read_b V c t]
  rfl

/-- An index is in point `t`'s block iff each coordinate is in the block's range. -/
theorem mem_blk (t : Fin cfg0.N) (i : S800000x64.Idx) :
    i ∈ ((cfg0.win 5).blk t).view.set ↔ ∀ a : Fin 2, win0_5.index t a * S8000x64.size a ≤ (i a).val ∧ (i a).val < win0_5.index t a * S8000x64.size a + S8000x64.size a := by
  show i ∈ ((View.whole main_v14).slice (win0_5.rect t)).set ↔ _
  rw [View.set_slice_whole, Rect.mem_set_unit]
  exact Iff.rfl

/-- Every edge row lies in the block of the point `row / 8000`. -/
theorem cover (i : S800000x64.Idx) : ∃ t : Fin cfg0.N, (cfg0.win 5).flush t = true ∧ i ∈ ((cfg0.win 5).blk t).view.set := by
  have hi0 : (i 0).val < 800000 := (i 0).isLt
  have hi1 : (i 1).val < 64 := (i 1).isLt
  have hN : grid0.N = 100 := N_0
  let t : Fin cfg0.N := ⟨(i 0).val / 8000, by show (i 0).val / 8000 < grid0.N; rw [hN]; omega⟩
  obtain ⟨-, -, -, -, -, -, -, -, -, -, e0, e1⟩ := idx_facts t
  have ht : t.val = (i 0).val / 8000 := rfl
  refine ⟨t, flush0_5 t, ?_⟩
  rw [mem_blk]
  intro a
  match a with
  | ⟨0, _⟩ => show win0_5.index t (0 : Fin 2) * 8000 ≤ (i 0).val ∧ (i 0).val < win0_5.index t (0 : Fin 2) * 8000 + 8000; rw [e0, ht]; omega
  | ⟨1, _⟩ => show win0_5.index t (1 : Fin 2) * 64 ≤ (i 1).val ∧ (i 1).val < win0_5.index t (1 : Fin 2) * 64 + 64; rw [e1]; omega

/-- THE ARRAY after the launch: the messages, everywhere. -/
theorem result (c : Dev nD) : (dat0 V c).arrAt 5 cfg0.N = msgs V c :=
  (dat0 V c).arrAt_eq_of_cover 5 (msgs V c) (fun t _ => flushed_eq V c t) cover

end Cert.KernelIdeal.EdgeMsg0

end
-- ==== Proof.NodeUpdate1.lean ====
/-
  Launch 1 of the idealized kernel program: the node update of layer 1, as ONE function of the arrays the launch finds.

  The launch walks the 50000 nodes in 10 blocks of 5000 rows.  At every block it multiplies the block's node rows with
  the weight, adds the bias row and the block's summed messages, shifts by the mean row, scales by the reciprocal square
  root of the variance row plus the smoothing constant, scales and shifts by the two affine rows, clips at zero, and writes
  the block back.  Entry (n, j) of the result depends on row n of the node features and of the summed messages and on
  column j of the parameters only, whatever block n lies in; the blocks tile the array.
-/
import proofs.«109759_j82265803588044_2_alg».proof.Proof.Gen.KernelIdeal.Frame
import proofs.«109759_j82265803588044_2_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeUpdate1

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

/-! ## The body's matrix product and what it stores, entry by entry -/

theorem lhsx_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem rhsx_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product of a block of node rows with the weight, into a zero accumulator: row times column. -/
theorem mm_x (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q) = ∑ k : Fin 64, l (ix2 p k) * r (ix2 k q) := by
  refine (Ideal.matmul_constant_zero_apply dot_S5000x64_S64x64_S5000x64_1_0_0_1_n_n none l r (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhsx_0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact rhsx_1 _ _)
  rw [el, er]

/-- What the body stores, at row `p` and column `q` of the block. -/
theorem stored_apply (x0 : Vec Ideal S5000x64 .f32) (x1 : Vec Ideal S64x64 .f32) (x2 : Vec Ideal S1x64 .f32) (x3 : Vec Ideal S5000x64 .f32)
    (vr mean gamma beta : Vec Ideal S1x64 .f32) (p : Fin 5000) (q : Fin 64) :
    k1_pay1 (F := Ideal) x0 x1 x2 x3 vr mean gamma beta (ix2 p q)
      = max ((((((∑ k : Fin 64, x0 (ix2 p k) * x1 (ix2 k q)) + x2 (ix2 (0 : Fin 1) q)) + x3 (ix2 p q) - mean (ix2 (0 : Fin 1) q))
            * Ideal.rsqrt (vr (ix2 (0 : Fin 1) q) + Ideal.ofBits .f32 0x3727C5AC#32))
          * gamma (ix2 (0 : Fin 1) q)) + beta (ix2 (0 : Fin 1) q))
        (Ideal.ofBits .f32 0x00000000#32) := by
  unfold k1_pay1
  simp only [shapeCast_self, maximumf_apply, addf_apply, mulf_apply, subf_apply, broadcast_apply]
  rw [mm_x _ _ p q, broadcastTo_1b_ab_apply x2 _ p q, broadcastTo_1b_ab_apply mean _ p q, broadcastTo_1b_ab_apply gamma _ p q,
    broadcastTo_1b_ab_apply beta _ p q, broadcastTo_1b_ab_apply _ _ p q]
  rfl

/-! ## The blocks -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block `t`, the parameters at block 0. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = t.val
    ∧ win1_8.index t (1 : Fin 2) = 0 :=
  (by decide +kernel : ∀ t : Fin grid1.N, _)

theorem point_lt (t : Fin cfg1.N) : t.val < 10 := Nat.lt_of_lt_of_eq t.isLt N_1

/-- Row `p` of block `t`, as a row of the whole array. -/
def row (t : Fin cfg1.N) (p : Fin 5000) : Fin 50000 := ⟨t.val * 5000 + p.val, by have := point_lt t; omega⟩

/-- Block `t` of the node features, read at (p, k), is the array at (row t p, k). -/
theorem read_x (c : Dev nD) (t : Fin cfg1.N) (p : Fin 5000) (k : Fin 64) :
    iblk1 V c 0 t (ix2 p k) = V c main_arg0 (ix2 (row t p) k) := by
  obtain ⟨e0, e1, -⟩ := idx_facts t
  show V c main_arg0 (((cfg1.win 0).blk t).view.emb (ix2 p k)) = V c main_arg0 (ix2 (row t p) k)
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega

/-- The one block of the weight is the whole array. -/
theorem read_w (c : Dev nD) (t : Fin cfg1.N) (k : Fin 64) (q : Fin 64) :
    iblk1 V c 1 t (ix2 k q) = V c main_arg5 (ix2 k q) := by
  obtain ⟨-, -, e0, e1, -⟩ := idx_facts t
  show V c main_arg5 (((cfg1.win 1).blk t).view.emb (ix2 k q)) = V c main_arg5 (ix2 k q)
  refine congrArg _ (funext fun a => Fin.ext ?_)
  match a with
  | ⟨0, _⟩ => show win1_1.index t (0 : Fin 2) * 64 + 1 * k.val = k.val; rw [e0]; omega
  | ⟨1, _⟩ => show win1_1.index t (1 : Fin 2) * 64 + 1 * q.val = q.val; rw [e1]; omega

/-- The one block of the bias row is the whole array. -/
theorem read_b (c : Dev nD) (t : Fin cfg1.N) (k : Fin 1) (q : Fin 64) :
    iblk1 V c 2 t (ix2 k q) = V c main_v18 (ix2 k q) := by
  obtain ⟨-, -, -, -, e0, e1, -⟩ := idx_facts t
  show V c main_v18 (((cfg1.win 2).blk t).view.emb (ix2 k q)) = V c main_v18 (ix2 k q)
  refine congrArg _ (funext fun a => Fin.ext ?_)
  match a with
  | ⟨0, _⟩ => show win1_2.index t (0 : Fin 2) * 1 + 1 * k.val = k.val; rw [e0]; omega
  | ⟨1, _⟩ => show win1_2.index t (1 : Fin 2) * 64 + 1 * q.val = q.val; rw [e1]; omega

/-- Block `t` of the summed messages, read at (p, k), is the array at (row t p, k). -/
theorem read_agg (c : Dev nD) (t : Fin cfg1.N) (p : Fin 5000) (k : Fin 64) :
    iblk1 V c 3 t (ix2 p k) = V c main_v17 (ix2 (row t p) k) := by
  obtain ⟨-, -, -, -, -, -, e0, e1, -⟩ := idx_facts t
  show V c main_v17 (((cfg1.win 3).blk t).view.emb (ix2 p k)) = V c main_v17 (ix2 (row t p) k)
  refine congrArg _ (funext fun a => Fin.ext ?_)
  match a with
  | ⟨0, _⟩ => show win1_3.index t (0 : Fin 2) * 5000 + 1 * p.val = t.val * 5000 + p.val; rw [e0]; omega
  | ⟨1, _⟩ => show win1_3.index t (1 : Fin 2) * 64 + 1 * k.val = k.val; rw [e1]; omega

/-- The one block of the scale row is the whole array. -/
theorem read_gamma (c : Dev nD) (t : Fin cfg1.N) (k : Fin 1) (q : Fin 64) :
    iblk1 V c 4 t (ix2 k q) = V c main_v19 (ix2 k q) := by
  obtain ⟨-, -, -, -, -, -, -, -, e0, e1, -⟩ := idx_facts t
  show V c main_v19 (((cfg1.win 4).blk t).view.emb (ix2 k q)) = V c main_v19 (ix2 k q)
  refine congrArg _ (funext fun a => Fin.ext ?_)
  match a with
  | ⟨0, _⟩ => show win1_4.index t (0 : Fin 2) * 1 + 1 * k.val = k.val; rw [e0]; omega
  | ⟨1, _⟩ => show win1_4.index t (1 : Fin 2) * 64 + 1 * q.val = q.val; rw [e1]; omega

/-- The one block of the shift row is the whole array. -/
theorem read_beta (c : Dev nD) (t : Fin cfg1.N) (k : Fin 1) (q : Fin 64) :
    iblk1 V c 5 t (ix2 k q) = V c main_v20 (ix2 k q) := by
  obtain ⟨-, -, -, -, -, -, -, -, -, -, e0, e1, -⟩ := idx_facts t
  show V c main_v20 (((cfg1.win 5).blk t).view.emb (ix2 k q)) = V c main_v20 (ix2 k q)
  refine congrArg _ (funext fun a => Fin.ext ?_)
  match a with
  | ⟨0, _⟩ => show win1_5.index t (0 : Fin 2) * 1 + 1 * k.val = k.val; rw [e0]; omega
  | ⟨1, _⟩ => show win1_5.index t (1 : Fin 2) * 64 + 1 * q.val = q.val; rw [e1]; omega

/-- The one block of the mean row is the whole array. -/
theorem read_mean (c : Dev nD) (t : Fin cfg1.N) (k : Fin 1) (q : Fin 64) :
    iblk1 V c 6 t (ix2 k q) = V c main_v21 (ix2 k q) := by
  obtain ⟨-, -, -, -, -, -, -, -, -, -, -, -, e0, e1, -⟩ := idx_facts t
  show V c main_v21 (((cfg1.win 6).blk t).view.emb (ix2 k q)) = V c main_v21 (ix2 k q)
  refine congrArg _ (funext fun a => Fin.ext ?_)
  match a with
  | ⟨0, _⟩ => show win1_6.index t (0 : Fin 2) * 1 + 1 * k.val = k.val; rw [e0]; omega
  | ⟨1, _⟩ => show win1_6.index t (1 : Fin 2) * 64 + 1 * q.val = q.val; rw [e1]; omega

/-- The one block of the variance row is the whole array. -/
theorem read_var (c : Dev nD) (t : Fin cfg1.N) (k : Fin 1) (q : Fin 64) :
    iblk1 V c 7 t (ix2 k q) = V c main_v22 (ix2 k q) := by
  obtain ⟨-, -, -, -, -, -, -, -, -, -, -, -, -, -, e0, e1, -⟩ := idx_facts t
  show V c main_v22 (((cfg1.win 7).blk t).view.emb (ix2 k q)) = V c main_v22 (ix2 k q)
  refine congrArg _ (funext fun a => Fin.ext ?_)
  match a with
  | ⟨0, _⟩ => show win1_7.index t (0 : Fin 2) * 1 + 1 * k.val = k.val; rw [e0]; omega
  | ⟨1, _⟩ => show win1_7.index t (1 : Fin 2) * 64 + 1 * q.val = q.val; rw [e1]; omega

/-- Entry (p, q) of the output's block `t` is entry (row t p, q) of the array. -/
theorem emb_out (t : Fin cfg1.N) (p : Fin 5000) (q : Fin 64) :
    ((cfg1.win 8).blk t).view.emb (ix2 p q) = ix2 (row t p) q := by
  obtain ⟨-, -, -, -, -, -, -, -, -, -, -, -, -, -, -, -, e0, e1⟩ := idx_facts t
  refine funext fun a => Fin.ext ?_
  match a with
  | ⟨0, _⟩ => show win1_8.index t (0 : Fin 2) * 5000 + 1 * p.val = t.val * 5000 + p.val; rw [e0]; omega
  | ⟨1, _⟩ => show win1_8.index t (1 : Fin 2) * 64 + 1 * q.val = q.val; rw [e1]; omega

/-- The updated node features as a function of the arrays the launch finds. -/
abbrev updated (c : Dev nD) : S50000x64.Idx → EReal :=
  nodeNormRelu (V c main_arg0) (V c main_arg5) (V c main_v18) (V c main_v17) (V c main_v19) (V c main_v20) (V c main_v21) (V c main_v22)

/-- What point `t` writes back is block `t` of the updated features. -/
theorem flushed_eq (c : Dev nD) (t : Fin cfg1.N) :
    (dat1 V c).flushed 8 t = ((cfg1.win 8).blk t).view.read (Elt Ideal) (updated V c) := by
  show (cfg1.win 8).cut (grid1.coords t) ((dat1 V c).after 8 t) = _
  rw [after1_8]
  unfold out1_8
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  refine (stored_apply (iblk1 V c 0 t) (iblk1 V c 1 t) (iblk1 V c 2 t) (iblk1 V c 3 t) (iblk1 V c 7 t) (iblk1 V c 6 t) (iblk1 V c 4 t) (iblk1 V c 5 t) p q).trans ?_
  show _ = updated V c (((cfg1.win 8).blk t).view.emb (ix2 p q))
  rw [emb_out t p q]
  simp only [read_x V c t, read_w V c t, read_b V c t, read_agg V c t, read_gamma V c t, read_beta V c t, read_mean V c t, read_var V c t]
  rfl

/-- An index is in point `t`'s block iff each coordinate is in the block's range. -/
theorem mem_blk (t : Fin cfg1.N) (i : S50000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v23).slice (win1_8.rect t)).set ↔ _
  rw [View.set_slice_whole, Rect.mem_set_unit]
  exact Iff.rfl

/-- Every node row lies in the block of the point `row / 5000`. -/
theorem cover (i : S50000x64.Idx) : ∃ t : Fin cfg1.N, (cfg1.win 8).flush t = true ∧ i ∈ ((cfg1.win 8).blk t).view.set := by
  have hi0 : (i 0).val < 50000 := (i 0).isLt
  have hi1 : (i 1).val < 64 := (i 1).isLt
  have hN : grid1.N = 10 := N_1
  let t : Fin cfg1.N := ⟨(i 0).val / 5000, by show (i 0).val / 5000 < grid1.N; rw [hN]; omega⟩
  obtain ⟨-, -, -, -, -, -, -, -, -, -, -, -, -, -, -, -, e0, e1⟩ := idx_facts t
  have ht : t.val = (i 0).val / 5000 := rfl
  refine ⟨t, flush1_8 t, ?_⟩
  rw [mem_blk]
  intro a
  match a with
  | ⟨0, _⟩ => show win1_8.index t (0 : Fin 2) * 5000 ≤ (i 0).val ∧ (i 0).val < win1_8.index t (0 : Fin 2) * 5000 + 5000; rw [e0, ht]; omega
  | ⟨1, _⟩ => show win1_8.index t (1 : Fin 2) * 64 ≤ (i 1).val ∧ (i 1).val < win1_8.index t (1 : Fin 2) * 64 + 64; rw [e1]; omega

/-- THE ARRAY after the launch: the updated features, everywhere. -/
theorem result (c : Dev nD) : (dat1 V c).arrAt 8 cfg1.N = updated V c :=
  (dat1 V c).arrAt_eq_of_cover 8 (updated V c) (fun t _ => flushed_eq V c t) cover

end Cert.KernelIdeal.NodeUpdate1

end
-- ==== Proof.EdgeMsg2.lean ====
/-
  Launch 2 of the idealized kernel program: the edge messages of layer 2, as ONE function of the arrays the launch
  finds.

  The launch walks the 800000 edges in 100 blocks of 8000 rows.  At every block it multiplies the block's gathered
  source rows with the first 64 weight rows, the block's edge features with the last 16, adds the two products and
  the bias row, and writes the block back.  Read at an entry (e, j) this is
      ∑ₖ xs(e, k) · wx(k, j)  +  ∑ₖ ea(e, k) · we(k, j)  +  b(0, j),
  whatever block `e` lies in; the blocks tile the array, so the array after the launch is that function everywhere.
-/
import proofs.«109759_j82265803588044_2_alg».proof.Proof.Gen.KernelIdeal.Frame
import proofs.«109759_j82265803588044_2_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeMsg2

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

/-! ## The two matrix products of the body, entry by entry -/

theorem lhsx_0 (i : S8000x32.Idx) (q : dot_S8000x64_S64x32_S8000x32_1_0_0_1_n_n.contr.Idx) : (dot_S8000x64_S64x32_S8000x32_1_0_0_1_n_n.lhsIdx i q 0).val = (i 0).val := by
  unfold DotDims.lhsIdx
  rw [dif_neg (show ¬(0 : Fin S8000x64.rank) ∈ dot_S8000x64_S64x32_S8000x32_1_0_0_1_n_n.lhsBatch by decide), dif_pos (show (0 : Fin S8000x64.rank) ∈ dot_S8000x64_S64x32_S8000x32_1_0_0_1_n_n.lhsNonContracting by decide)]
  rfl
theorem rhsx_1 (i : S8000x32.Idx) (q : dot_S8000x64_S64x32_S8000x32_1_0_0_1_n_n.contr.Idx) : (dot_S8000x64_S64x32_S8000x32_1_0_0_1_n_n.rhsIdx i q 1).val = (i 1).val := by
  unfold DotDims.rhsIdx
  rw [dif_neg (show ¬(1 : Fin S64x32.rank) ∈ dot_S8000x64_S64x32_S8000x32_1_0_0_1_n_n.rhsBatch by decide), dif_pos (show (1 : Fin S64x32.rank) ∈ dot_S8000x64_S64x32_S8000x32_1_0_0_1_n_n.rhsNonContracting by decide)]
  rfl
theorem lhse_0 (i : S8000x32.Idx) (q : dot_S8000x16_S16x32_S8000x32_1_0_0_1_n_n.contr.Idx) : (dot_S8000x16_S16x32_S8000x32_1_0_0_1_n_n.lhsIdx i q 0).val = (i 0).val := by
  unfold DotDims.lhsIdx
  rw [dif_neg (show ¬(0 : Fin S8000x16.rank) ∈ dot_S8000x16_S16x32_S8000x32_1_0_0_1_n_n.lhsBatch by decide), dif_pos (show (0 : Fin S8000x16.rank) ∈ dot_S8000x16_S16x32_S8000x32_1_0_0_1_n_n.lhsNonContracting by decide)]
  rfl
theorem rhse_1 (i : S8000x32.Idx) (q : dot_S8000x16_S16x32_S8000x32_1_0_0_1_n_n.contr.Idx) : (dot_S8000x16_S16x32_S8000x32_1_0_0_1_n_n.rhsIdx i q 1).val = (i 1).val := by
  unfold DotDims.rhsIdx
  rw [dif_neg (show ¬(1 : Fin S16x32.rank) ∈ dot_S8000x16_S16x32_S8000x32_1_0_0_1_n_n.rhsBatch by decide), dif_pos (show (1 : Fin S16x32.rank) ∈ dot_S8000x16_S16x32_S8000x32_1_0_0_1_n_n.rhsNonContracting by decide)]
  rfl

/-- The product of a block of source rows with the first 64 weight rows, into a zero accumulator: row times column. -/
theorem mm_x (l : FVec Ideal S8000x64 .bf16) (r : FVec Ideal S64x32 .bf16) (p : Fin 8000) (q : Fin 32) :
    matmul dot_S8000x64_S64x32_S8000x32_1_0_0_1_n_n none l r (constant S8000x32 .f32 0x00000000#32) (ix2 p q) = ∑ k : Fin 64, l (ix2 p k) * r (ix2 k q) := by
  refine (Ideal.matmul_constant_zero_apply dot_S8000x64_S64x32_S8000x32_1_0_0_1_n_n none l r (ix2 p q)).trans ?_
  rw [← Equiv.sum_comp (contrEquiv1 dot_S8000x64_S64x32_S8000x32_1_0_0_1_n_n 64 rfl rfl).symm]
  refine Finset.sum_congr rfl fun k _ => ?_
  have hk := contrEquiv1_symm_val dot_S8000x64_S64x32_S8000x32_1_0_0_1_n_n 64 rfl rfl k
  have el : dot_S8000x64_S64x32_S8000x32_1_0_0_1_n_n.lhsIdx (ix2 p q) ((contrEquiv1 dot_S8000x64_S64x32_S8000x32_1_0_0_1_n_n 64 rfl rfl).symm k) = ix2 p k := funext fun a => Fin.ext (by
    match a with
    | ⟨0, _⟩ => exact lhsx_0 _ _
    | ⟨1, _⟩ => exact (dot_S8000x64_S64x32_S8000x32_1_0_0_1_n_n.lhsIdx_val_of_single rfl _ _).trans hk)
  have er : dot_S8000x64_S64x32_S8000x32_1_0_0_1_n_n.rhsIdx (ix2 p q) ((contrEquiv1 dot_S8000x64_S64x32_S8000x32_1_0_0_1_n_n 64 rfl rfl).symm k) = ix2 k q := funext fun a => Fin.ext (by
    match a with
    | ⟨0, _⟩ => exact (dot_S8000x64_S64x32_S8000x32_1_0_0_1_n_n.rhsIdx_val_of_single rfl _ _).trans hk
    | ⟨1, _⟩ => exact rhsx_1 _ _)
  rw [el, er]

/-- The product of a block of edge features with the last 16 weight rows, into a zero accumulator. -/
theorem mm_e (l : FVec Ideal S8000x16 .bf16) (r : FVec Ideal S16x32 .bf16) (p : Fin 8000) (q : Fin 32) :
    matmul dot_S8000x16_S16x32_S8000x32_1_0_0_1_n_n none l r (constant S8000x32 .f32 0x00000000#32) (ix2 p q) = ∑ k : Fin 16, l (ix2 p k) * r (ix2 k q) := by
  refine (Ideal.matmul_constant_zero_apply dot_S8000x16_S16x32_S8000x32_1_0_0_1_n_n none l r (ix2 p q)).trans ?_
  rw [← Equiv.sum_comp (contrEquiv1 dot_S8000x16_S16x32_S8000x32_1_0_0_1_n_n 16 rfl rfl).symm]
  refine Finset.sum_congr rfl fun k _ => ?_
  have hk := contrEquiv1_symm_val dot_S8000x16_S16x32_S8000x32_1_0_0_1_n_n 16 rfl rfl k
  have el : dot_S8000x16_S16x32_S8000x32_1_0_0_1_n_n.lhsIdx (ix2 p q) ((contrEquiv1 dot_S8000x16_S16x32_S8000x32_1_0_0_1_n_n 16 rfl rfl).symm k) = ix2 p k := funext fun a => Fin.ext (by
    match a with
    | ⟨0, _⟩ => exact lhse_0 _ _
    | ⟨1, _⟩ => exact (dot_S8000x16_S16x32_S8000x32_1_0_0_1_n_n.lhsIdx_val_of_single rfl _ _).trans hk)
  have er : dot_S8000x16_S16x32_S8000x32_1_0_0_1_n_n.rhsIdx (ix2 p q) ((contrEquiv1 dot_S8000x16_S16x32_S8000x32_1_0_0_1_n_n 16 rfl rfl).symm k) = ix2 k q := funext fun a => Fin.ext (by
    match a with
    | ⟨0, _⟩ => exact (dot_S8000x16_S16x32_S8000x32_1_0_0_1_n_n.rhsIdx_val_of_single rfl _ _).trans hk
    | ⟨1, _⟩ => exact rhse_1 _ _)
  rw [el, er]

/-- What the body stores, at row `p` and column `q` of the block: the two products and the bias row's entry. -/
theorem stored_apply (x0 : Vec Ideal S8000x64 .f32) (x1 : Vec Ideal S8000x16 .f32) (x2 : Vec Ideal S64x32 .f32) (x3 : Vec Ideal S16x32 .f32)
    (x4 : Vec Ideal S1x32 .f32) (p : Fin 8000) (q : Fin 32) :
    k2_pay1 (F := Ideal) x0 x1 x2 x3 x4 (ix2 p q)
      = ((∑ k : Fin 64, x0 (ix2 p k) * x2 (ix2 k q)) + ∑ k : Fin 16, x1 (ix2 p k) * x3 (ix2 k q)) + x4 (ix2 (0 : Fin 1) q) := by
  unfold k2_pay1
  simp only [shapeCast_self]
  exact congrArg₂ (· + ·) (congrArg₂ (· + ·) (mm_x _ _ p q) (mm_e _ _ p q)) (broadcastTo_1b_ab_apply x4 _ p q)

/-! ## The blocks -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block `t`, the weights and the bias at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 100 := Nat.lt_of_lt_of_eq t.isLt N_2

/-- Row `p` of block `t`, as a row of the whole array. -/
def row (t : Fin cfg2.N) (p : Fin 8000) : Fin 800000 := ⟨t.val * 8000 + p.val, by have := point_lt t; omega⟩

/-- Block `t` of the gathered source rows, read at (p, k), is the array at (row t p, k). -/
theorem read_xs (c : Dev nD) (t : Fin cfg2.N) (p : Fin 8000) (k : Fin 64) :
    iblk2 V c 0 t (ix2 p k) = V c main_v34 (ix2 (row t p) k) := by
  obtain ⟨e0, e1, -⟩ := idx_facts t
  show V c main_v34 (((cfg2.win 0).blk t).view.emb (ix2 p k)) = V c main_v34 (ix2 (row t p) k)
  refine congrArg _ (funext fun a => Fin.ext ?_)
  match a with
  | ⟨0, _⟩ => show win2_0.index t (0 : Fin 2) * 8000 + 1 * p.val = t.val * 8000 + p.val; rw [e0]; omega
  | ⟨1, _⟩ => show win2_0.index t (1 : Fin 2) * 64 + 1 * k.val = k.val; rw [e1]; omega

/-- Block `t` of the edge features, read at (p, k), is the array at (row t p, k). -/
theorem read_ea (c : Dev nD) (t : Fin cfg2.N) (p : Fin 8000) (k : Fin 16) :
    iblk2 V c 1 t (ix2 p k) = V c main_arg2 (ix2 (row t p) k) := by
  obtain ⟨-, -, e0, e1, -⟩ := idx_facts t
  show V c main_arg2 (((cfg2.win 1).blk t).view.emb (ix2 p k)) = V c main_arg2 (ix2 (row t p) k)
  refine congrArg _ (funext fun a => Fin.ext ?_)
  match a with
  | ⟨0, _⟩ => show win2_1.index t (0 : Fin 2) * 8000 + 1 * p.val = t.val * 8000 + p.val; rw [e0]; omega
  | ⟨1, _⟩ => show win2_1.index t (1 : Fin 2) * 16 + 1 * k.val = k.val; rw [e1]; omega

/-- The one block of the first 64 weight rows is the whole array. -/
theorem read_wx (c : Dev nD) (t : Fin cfg2.N) (k : Fin 64) (q : Fin 32) :
    iblk2 V c 2 t (ix2 k q) = V c main_v35 (ix2 k q) := by
  obtain ⟨-, -, -, -, e0, e1, -⟩ := idx_facts t
  show V c main_v35 (((cfg2.win 2).blk t).view.emb (ix2 k q)) = V c main_v35 (ix2 k q)
  refine congrArg _ (funext fun a => Fin.ext ?_)
  match a with
  | ⟨0, _⟩ => show win2_2.index t (0 : Fin 2) * 64 + 1 * k.val = k.val; rw [e0]; omega
  | ⟨1, _⟩ => show win2_2.index t (1 : Fin 2) * 32 + 1 * q.val = q.val; rw [e1]; omega

/-- The one block of the last 16 weight rows is the whole array. -/
theorem read_we (c : Dev nD) (t : Fin cfg2.N) (k : Fin 16) (q : Fin 32) :
    iblk2 V c 3 t (ix2 k q) = V c main_v36 (ix2 k q) := by
  obtain ⟨-, -, -, -, -, -, e0, e1, -⟩ := idx_facts t
  show V c main_v36 (((cfg2.win 3).blk t).view.emb (ix2 k q)) = V c main_v36 (ix2 k q)
  refine congrArg _ (funext fun a => Fin.ext ?_)
  match a with
  | ⟨0, _⟩ => show win2_3.index t (0 : Fin 2) * 16 + 1 * k.val = k.val; rw [e0]; omega
  | ⟨1, _⟩ => show win2_3.index t (1 : Fin 2) * 32 + 1 * q.val = q.val; rw [e1]; omega

/-- The one block of the bias row is the whole array. -/
theorem read_b (c : Dev nD) (t : Fin cfg2.N) (u : Fin 1) (q : Fin 32) :
    iblk2 V c 4 t (ix2 u q) = V c main_v37 (ix2 u q) := by
  obtain ⟨-, -, -, -, -, -, -, -, e0, e1, -⟩ := idx_facts t
  show V c main_v37 (((cfg2.win 4).blk t).view.emb (ix2 u q)) = V c main_v37 (ix2 u q)
  refine congrArg _ (funext fun a => Fin.ext ?_)
  match a with
  | ⟨0, _⟩ => show win2_4.index t (0 : Fin 2) * 1 + 1 * u.val = u.val; rw [e0]; omega
  | ⟨1, _⟩ => show win2_4.index t (1 : Fin 2) * 32 + 1 * q.val = q.val; rw [e1]; omega

/-- Entry (p, q) of the output's block `t` is entry (row t p, q) of the array. -/
theorem emb_out (t : Fin cfg2.N) (p : Fin 8000) (q : Fin 32) :
    ((cfg2.win 5).blk t).view.emb (ix2 p q) = ix2 (row t p) q := by
  obtain ⟨-, -, -, -, -, -, -, -, -, -, e0, e1⟩ := idx_facts t
  refine funext fun a => Fin.ext ?_
  match a with
  | ⟨0, _⟩ => show win2_5.index t (0 : Fin 2) * 8000 + 1 * p.val = t.val * 8000 + p.val; rw [e0]; omega
  | ⟨1, _⟩ => show win2_5.index t (1 : Fin 2) * 32 + 1 * q.val = q.val; rw [e1]; omega

/-- The messages as a function of the arrays the launch finds. -/
abbrev msgs (c : Dev nD) : S800000x32.Idx → EReal :=
  edgeMsg (V c main_v34) (V c main_arg2) (V c main_v35) (V c main_v36) (V c main_v37)

/-- What point `t` writes back is block `t` of the messages. -/
theorem flushed_eq (c : Dev nD) (t : Fin cfg2.N) :
    (dat2 V c).flushed 5 t = ((cfg2.win 5).blk t).view.read (Elt Ideal) (msgs V c) := by
  show (cfg2.win 5).cut (grid2.coords t) ((dat2 V c).after 5 t) = _
  rw [after2_5]
  unfold out2_5
  rw [View.canon_unit_zero hz]
  simp only [View.ld_unit_zero (S := S8000x64) hz, View.ld_unit_zero (S := S8000x16) hz, View.ld_unit_zero (S := S64x32) hz,
    View.ld_unit_zero (S := S16x32) hz, View.ld_unit_zero (S := S1x32) hz]
  funext j
  obtain ⟨p, q, rfl⟩ : ∃ (p : Fin 8000) (q : Fin 32), j = ix2 p q := ⟨j 0, j 1, eq_ix2 j⟩
  refine (stored_apply (iblk2 V c 0 t) (iblk2 V c 1 t) (iblk2 V c 2 t) (iblk2 V c 3 t) (iblk2 V c 4 t) p q).trans ?_
  show _ = msgs V c (((cfg2.win 5).blk t).view.emb (ix2 p q))
  rw [emb_out t p q]
  simp only [read_xs V c t, read_ea V c t, read_wx V c t, read_we V c t, read_b V c t]
  rfl

/-- An index is in point `t`'s block iff each coordinate is in the block's range. -/
theorem mem_blk (t : Fin cfg2.N) (i : S800000x32.Idx) :
    i ∈ ((cfg2.win 5).blk t).view.set ↔ ∀ a : Fin 2, win2_5.index t a * S8000x32.size a ≤ (i a).val ∧ (i a).val < win2_5.index t a * S8000x32.size a + S8000x32.size a := by
  show i ∈ ((View.whole main_v38).slice (win2_5.rect t)).set ↔ _
  rw [View.set_slice_whole, Rect.mem_set_unit]
  exact Iff.rfl

/-- Every edge row lies in the block of the point `row / 8000`. -/
theorem cover (i : S800000x32.Idx) : ∃ t : Fin cfg2.N, (cfg2.win 5).flush t = true ∧ i ∈ ((cfg2.win 5).blk t).view.set := by
  have hi0 : (i 0).val < 800000 := (i 0).isLt
  have hi1 : (i 1).val < 32 := (i 1).isLt
  have hN : grid2.N = 100 := N_2
  let t : Fin cfg2.N := ⟨(i 0).val / 8000, by show (i 0).val / 8000 < grid2.N; rw [hN]; omega⟩
  obtain ⟨-, -, -, -, -, -, -, -, -, -, e0, e1⟩ := idx_facts t
  have ht : t.val = (i 0).val / 8000 := rfl
  refine ⟨t, flush2_5 t, ?_⟩
  rw [mem_blk]
  intro a
  match a with
  | ⟨0, _⟩ => show win2_5.index t (0 : Fin 2) * 8000 ≤ (i 0).val ∧ (i 0).val < win2_5.index t (0 : Fin 2) * 8000 + 8000; rw [e0, ht]; omega
  | ⟨1, _⟩ => show win2_5.index t (1 : Fin 2) * 32 ≤ (i 1).val ∧ (i 1).val < win2_5.index t (1 : Fin 2) * 32 + 32; rw [e1]; omega

/-- THE ARRAY after the launch: the messages, everywhere. -/
theorem result (c : Dev nD) : (dat2 V c).arrAt 5 cfg2.N = msgs V c :=
  (dat2 V c).arrAt_eq_of_cover 5 (msgs V c) (fun t _ => flushed_eq V c t) cover

end Cert.KernelIdeal.EdgeMsg2

end
-- ==== Proof.NodeUpdate3.lean ====
/-
  Launch 3 of the idealized kernel program: the node update of layer 2, as ONE function of the arrays the launch finds.

  The launch walks the 50000 nodes in 10 blocks of 5000 rows.  At every block it multiplies the block's node rows with
  the weight, adds the bias row and the block's summed messages, and writes
  the block back.  Entry (n, j) of the result depends on row n of the node features and of the summed messages and on
  column j of the parameters only, whatever block n lies in; the blocks tile the array.
-/
import proofs.«109759_j82265803588044_2_alg».proof.Proof.Gen.KernelIdeal.Frame
import proofs.«109759_j82265803588044_2_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeUpdate3

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

/-! ## The body's matrix product and what it stores, entry by entry -/

theorem lhsx_0 (i : S5000x32.Idx) (q : dot_S5000x64_S64x32_S5000x32_1_0_0_1_n_n.contr.Idx) : (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem rhsx_1 (i : S5000x32.Idx) (q : dot_S5000x64_S64x32_S5000x32_1_0_0_1_n_n.contr.Idx) : (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The product of a block of node rows with the weight, into a zero accumulator: row times column. -/
theorem mm_x (l : FVec Ideal S5000x64 .bf16) (r : FVec Ideal S64x32 .bf16) (p : Fin 5000) (q : Fin 32) :
    matmul dot_S5000x64_S64x32_S5000x32_1_0_0_1_n_n none l r (constant S5000x32 .f32 0x00000000#32) (ix2 p q) = ∑ k : Fin 64, l (ix2 p k) * r (ix2 k q) := by
  refine (Ideal.matmul_constant_zero_apply dot_S5000x64_S64x32_S5000x32_1_0_0_1_n_n none l r (ix2 p q)).trans ?_
  rw [← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k := funext fun a => Fin.ext (by
    match a with
    | ⟨0, _⟩ => exact lhsx_0 _ _
    | ⟨1, _⟩ => exact (dot_S5000x64_S64x32_S5000x32_1_0_0_1_n_n.lhsIdx_val_of_single rfl _ _).trans hk)
  have er : dot_S5000x64_S64x32_S5000x32_1_0_0_1_n_n.rhsIdx (ix2 p q) ((contrEquiv1 dot_S5000x64_S64x32_S5000x32_1_0_0_1_n_n 64 rfl rfl).symm k) = ix2 k q := funext fun a => Fin.ext (by
    match a with
    | ⟨0, _⟩ => exact (dot_S5000x64_S64x32_S5000x32_1_0_0_1_n_n.rhsIdx_val_of_single rfl _ _).trans hk
    | ⟨1, _⟩ => exact rhsx_1 _ _)
  rw [el, er]

/-- What the body stores, at row `p` and column `q` of the block. -/
theorem stored_apply (x0 : Vec Ideal S5000x64 .f32) (x1 : Vec Ideal S64x32 .f32) (x2 : Vec Ideal S1x32 .f32) (x3 : Vec Ideal S5000x32 .f32)
    (p : Fin 5000) (q : Fin 32) :
    k3_pay1 (F := Ideal) x0 x1 x2 x3 (ix2 p q)
      = ((∑ k : Fin 64, x0 (ix2 p k) * x1 (ix2 k q)) + x2 (ix2 (0 : Fin 1) q)) + x3 (ix2 p q) := by
  unfold k3_pay1
  simp only [shapeCast_self]
  exact congrArg₂ (· + ·) (congrArg₂ (· + ·) (mm_x _ _ p q) (broadcastTo_1b_ab_apply x2 _ p q)) rfl

/-! ## The blocks -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block `t`, the parameters at block 0. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0
    ∧ win3_4.index t (0 : Fin 2) = t.val
    ∧ win3_4.index t (1 : Fin 2) = 0 :=
  (by decide +kernel : ∀ t : Fin grid3.N, _)

theorem point_lt (t : Fin cfg3.N) : t.val < 10 := Nat.lt_of_lt_of_eq t.isLt N_3

/-- Row `p` of block `t`, as a row of the whole array. -/
def row (t : Fin cfg3.N) (p : Fin 5000) : Fin 50000 := ⟨t.val * 5000 + p.val, by have := point_lt t; omega⟩

/-- Block `t` of the first layer's features, read at (p, k), is the array at (row t p, k). -/
theorem read_x (c : Dev nD) (t : Fin cfg3.N) (p : Fin 5000) (k : Fin 64) :
    iblk3 V c 0 t (ix2 p k) = V c main_v23 (ix2 (row t p) k) := by
  obtain ⟨e0, e1, -⟩ := idx_facts t
  show V c main_v23 (((cfg3.win 0).blk t).view.emb (ix2 p k)) = V c main_v23 (ix2 (row t p) k)
  refine congrArg _ (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 64 + 1 * k.val = k.val; rw [e1]; omega

/-- The one block of the weight is the whole array. -/
theorem read_w (c : Dev nD) (t : Fin cfg3.N) (k : Fin 64) (q : Fin 32) :
    iblk3 V c 1 t (ix2 k q) = V c main_arg13 (ix2 k q) := by
  obtain ⟨-, -, e0, e1, -⟩ := idx_facts t
  show V c main_arg13 (((cfg3.win 1).blk t).view.emb (ix2 k q)) = V c main_arg13 (ix2 k q)
  refine congrArg _ (funext fun a => Fin.ext ?_)
  match a with
  | ⟨0, _⟩ => show win3_1.index t (0 : Fin 2) * 64 + 1 * k.val = k.val; rw [e0]; omega
  | ⟨1, _⟩ => show win3_1.index t (1 : Fin 2) * 32 + 1 * q.val = q.val; rw [e1]; omega

/-- The one block of the bias row is the whole array. -/
theorem read_b (c : Dev nD) (t : Fin cfg3.N) (k : Fin 1) (q : Fin 32) :
    iblk3 V c 2 t (ix2 k q) = V c main_v42 (ix2 k q) := by
  obtain ⟨-, -, -, -, e0, e1, -⟩ := idx_facts t
  show V c main_v42 (((cfg3.win 2).blk t).view.emb (ix2 k q)) = V c main_v42 (ix2 k q)
  refine congrArg _ (funext fun a => Fin.ext ?_)
  match a with
  | ⟨0, _⟩ => show win3_2.index t (0 : Fin 2) * 1 + 1 * k.val = k.val; rw [e0]; omega
  | ⟨1, _⟩ => show win3_2.index t (1 : Fin 2) * 32 + 1 * q.val = q.val; rw [e1]; omega

/-- Block `t` of the summed messages, read at (p, k), is the array at (row t p, k). -/
theorem read_agg (c : Dev nD) (t : Fin cfg3.N) (p : Fin 5000) (k : Fin 32) :
    iblk3 V c 3 t (ix2 p k) = V c main_v41 (ix2 (row t p) k) := by
  obtain ⟨-, -, -, -, -, -, e0, e1, -⟩ := idx_facts t
  show V c main_v41 (((cfg3.win 3).blk t).view.emb (ix2 p k)) = V c main_v41 (ix2 (row t p) k)
  refine congrArg _ (funext fun a => Fin.ext ?_)
  match a with
  | ⟨0, _⟩ => show win3_3.index t (0 : Fin 2) * 5000 + 1 * p.val = t.val * 5000 + p.val; rw [e0]; omega
  | ⟨1, _⟩ => show win3_3.index t (1 : Fin 2) * 32 + 1 * k.val = k.val; rw [e1]; omega

/-- Entry (p, q) of the output's block `t` is entry (row t p, q) of the array. -/
theorem emb_out (t : Fin cfg3.N) (p : Fin 5000) (q : Fin 32) :
    ((cfg3.win 4).blk t).view.emb (ix2 p q) = ix2 (row t p) q := by
  obtain ⟨-, -, -, -, -, -, -, -, e0, e1⟩ := idx_facts t
  refine funext fun a => Fin.ext ?_
  match a with
  | ⟨0, _⟩ => show win3_4.index t (0 : Fin 2) * 5000 + 1 * p.val = t.val * 5000 + p.val; rw [e0]; omega
  | ⟨1, _⟩ => show win3_4.index t (1 : Fin 2) * 32 + 1 * q.val = q.val; rw [e1]; omega

/-- The updated node features as a function of the arrays the launch finds. -/
abbrev updated (c : Dev nD) : S50000x32.Idx → EReal :=
  nodeOut (V c main_v23) (V c main_arg13) (V c main_v42) (V c main_v41)

/-- What point `t` writes back is block `t` of the updated features. -/
theorem flushed_eq (c : Dev nD) (t : Fin cfg3.N) :
    (dat3 V c).flushed 4 t = ((cfg3.win 4).blk t).view.read (Elt Ideal) (updated V c) := by
  show (cfg3.win 4).cut (grid3.coords t) ((dat3 V c).after 4 t) = _
  rw [after3_4]
  unfold out3_4
  rw [View.canon_unit_zero hz]
  simp only [View.ld_unit_zero (S := S5000x64) hz, View.ld_unit_zero (S := S64x32) hz, View.ld_unit_zero (S := S1x32) hz, View.ld_unit_zero (S := S5000x32) hz]
  funext j
  obtain ⟨p, q, rfl⟩ : ∃ (p : Fin 5000) (q : Fin 32), j = ix2 p q := ⟨j 0, j 1, eq_ix2 j⟩
  refine (stored_apply (iblk3 V c 0 t) (iblk3 V c 1 t) (iblk3 V c 2 t) (iblk3 V c 3 t) p q).trans ?_
  show _ = updated V c (((cfg3.win 4).blk t).view.emb (ix2 p q))
  rw [emb_out t p q]
  simp only [read_x V c t, read_w V c t, read_b V c t, read_agg V c t]
  rfl

/-- An index is in point `t`'s block iff each coordinate is in the block's range. -/
theorem mem_blk (t : Fin cfg3.N) (i : S50000x32.Idx) :
    i ∈ ((cfg3.win 4).blk t).view.set ↔ ∀ a : Fin 2, win3_4.index t a * S5000x32.size a ≤ (i a).val ∧ (i a).val < win3_4.index t a * S5000x32.size a + S5000x32.size a := by
  show i ∈ ((View.whole main_v43).slice (win3_4.rect t)).set ↔ _
  rw [View.set_slice_whole, Rect.mem_set_unit]
  exact Iff.rfl

/-- Every node row lies in the block of the point `row / 5000`. -/
theorem cover (i : S50000x32.Idx) : ∃ t : Fin cfg3.N, (cfg3.win 4).flush t = true ∧ i ∈ ((cfg3.win 4).blk t).view.set := by
  have hi0 : (i 0).val < 50000 := (i 0).isLt
  have hi1 : (i 1).val < 32 := (i 1).isLt
  have hN : grid3.N = 10 := N_3
  let t : Fin cfg3.N := ⟨(i 0).val / 5000, by show (i 0).val / 5000 < grid3.N; rw [hN]; omega⟩
  obtain ⟨-, -, -, -, -, -, -, -, e0, e1⟩ := idx_facts t
  have ht : t.val = (i 0).val / 5000 := rfl
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; rw [e0, ht]; omega
  | ⟨1, _⟩ => show win3_4.index t (1 : Fin 2) * 32 ≤ (i 1).val ∧ (i 1).val < win3_4.index t (1 : Fin 2) * 32 + 32; rw [e1]; omega

/-- THE ARRAY after the launch: the updated features, everywhere. -/
theorem result (c : Dev nD) : (dat3 V c).arrAt 4 cfg3.N = updated V c :=
  (dat3 V c).arrAt_eq_of_cover 4 (updated V c) (fun t _ => flushed_eq V c t) cover

end Cert.KernelIdeal.NodeUpdate3

end
-- ==== Proof.DenseBridge.lean ====
/-
  The dense parts of the two layers, tiled arrangement against joined arrangement.

  The reference joins every edge's gathered source row with the edge's features into one row of 80 entries and
  multiplies it with the whole 80-row weight; the tiled program multiplies the two parts with the weight's first 64 and
  last 16 rows and adds the products.  Over the extended reals both are the same sum of 80 products, split at 64 —
  addition there is commutative and associative, so no finiteness is asked of the inputs.  The node updates are the
  same expression on both sides, the reference's row parameters broadcast along the nodes where the tiled program
  broadcasts the reshaped row; the reciprocal square root is the one function on both sides.
-/
import proofs.«109759_j82265803588044_2_alg».proof.Proof.Gen.ReferenceIdeal.Read
import proofs.«109759_j82265803588044_2_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Cert.ReferenceIdeal Cert.Gnn
open Idealize.ShloMosaic Idealize.ShloMosaic.TcCoe Idealize.ShloMosaic.ValueIdx

/-- Layer 1's messages: the product of the joined rows [xs(e, ·), a(e, ·)] with the whole weight is the product of
    xs(e, ·) with its first 64 rows plus the product of a(e, ·) with its last 16 — a sum over 80 terms split at 64 —,
    and the bias row broadcast along the edges is the bias at the column. -/
theorem msg1 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S80x64, .f32⟩ : BufTy).Contents (Elt Ideal)) (x4 : (⟨S64, .f32⟩ : BufTy).Contents (Elt Ideal))
    (h0 : S80x64.Slices ![0, 0] S64x64) (h64 : S80x64.Slices ![64, 0] (⟨2, ![16, 64]⟩ : Shape)) (hr : S64.ShapeCasts S1x64) :
    edgeMsg (Read.val_main_v10 x0 x1) x2 (extractStridedSlice S64x64 ![0, 0] x3 h0) (extractStridedSlice (⟨2, ![16, 64]⟩ : Shape) ![64, 0] x3 h64) (shapeCast S1x64 x4 hr)
      = Read.val_main_v15 x0 x1 x2 x3 x4 := by
  funext i
  rw [Read.val_main_v15_apply, Read.val_main_v12_apply, Read.val_main_v14_apply, Read.val_main_v13_apply]
  have hs : (∑ k : Fin 80, (fun k => Read.val_main_v11 (F := Ideal) x0 x1 x2 (Read.lidx_main_v12 i k) * x3 (Read.ridx_main_v12 i k)) k)
      = (∑ k : Fin 64, (fun k => Read.val_main_v11 (F := Ideal) x0 x1 x2 (Read.lidx_main_v12 i k) * x3 (Read.ridx_main_v12 i k)) (Fin.castAdd 16 k)) + ∑ k : Fin 16, (fun k => Read.val_main_v11 (F := Ideal) x0 x1 x2 (Read.lidx_main_v12 i k) * x3 (Read.ridx_main_v12 i k)) (Fin.natAdd 64 k) :=
    Fin.sum_univ_add (M := EReal) (a := 64) (b := 16) (fun k => Read.val_main_v11 (F := Ideal) x0 x1 x2 (Read.lidx_main_v12 i k) * x3 (Read.ridx_main_v12 i k))
  refine Eq.trans ?_ (congrArg (fun s : EReal => s + x4 (Read.idx_main_v13 (Read.idx_main_v14 i))) hs.symm)
  unfold edgeMsg
  refine congrArg₂ (· + ·) (congrArg₂ (· + ·) (Finset.sum_congr rfl fun k _ => ?_) (Finset.sum_congr rfl fun k _ => ?_)) ?_
  · refine congrArg₂ (· * ·) ?_ ?_
    · unfold Read.val_main_v11
      symm
      exact concatenate_pair_apply_left 1 _ _ _ (Read.lidx_main_v12 i (Fin.castAdd 16 k)) (by rfl) (ix2 (r0 i) k)
        (fun b => by match b with | ⟨0, _⟩ => rfl | ⟨1, _⟩ => rfl)
    · refine (slice2_axis0_apply 0 x3 h0 k (c1 i) ⟨k.val, by have := k.isLt; omega⟩ (Nat.zero_add _).symm).trans ?_
      exact congrArg x3 (funext fun a => by match a with | ⟨0, _⟩ => rfl | ⟨1, _⟩ => rfl)
  · refine congrArg₂ (· * ·) ?_ ?_
    · unfold Read.val_main_v11
      symm
      exact concatenate_pair_apply_right 1 _ _ _ (Read.lidx_main_v12 i (Fin.natAdd 64 k)) (by rfl) (by rfl) (ix2 (r0 i) k)
        (fun b hb => by match b with | ⟨0, _⟩ => rfl | ⟨1, _⟩ => exact absurd rfl hb)
        (by show k.val + 64 = 64 + k.val; omega)
    · refine (slice2_axis0_apply 64 x3 h64 k (c1 i) ⟨64 + k.val, by have := k.isLt; omega⟩ rfl).trans ?_
      exact congrArg x3 (funext fun a => by match a with | ⟨0, _⟩ => rfl | ⟨1, _⟩ => rfl)
  · refine (shapeCast_a_1a_apply x4 hr (0 : Fin 1) (c1 i)).trans ?_
    exact congrArg x4 (funext fun a => by match a with | ⟨0, _⟩ => rfl)

/-- Layer 2's messages: the product of the joined rows [xs(e, ·), a(e, ·)] with the whole weight is the product of
    xs(e, ·) with its first 64 rows plus the product of a(e, ·) with its last 16 — a sum over 80 terms split at 64 —,
    and the bias row broadcast along the edges is the bias at the column. -/
theorem msg2 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S80x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) (x11 : (⟨S80x32, .f32⟩ : BufTy).Contents (Elt Ideal)) (x12 : (⟨S32, .f32⟩ : BufTy).Contents (Elt Ideal))
    (h0 : S80x32.Slices ![0, 0] S64x32) (h64 : S80x32.Slices ![64, 0] (⟨2, ![16, 32]⟩ : Shape)) (hr : S32.ShapeCasts S1x32) :
    edgeMsg (Read.val_main_v50 x0 x1 x2 x3 x4 x5 x6 x7 x8 x9 x10) x2 (extractStridedSlice S64x32 ![0, 0] x11 h0) (extractStridedSlice (⟨2, ![16, 32]⟩ : Shape) ![64, 0] x11 h64) (shapeCast S1x32 x12 hr)
      = Read.val_main_v55 x0 x1 x2 x3 x4 x5 x6 x7 x8 x9 x10 x11 x12 := by
  funext i
  rw [Read.val_main_v55_apply, Read.val_main_v52_apply, Read.val_main_v54_apply, Read.val_main_v53_apply]
  have hs : (∑ k : Fin 80, (fun k => Read.val_main_v51 (F := Ideal) x0 x1 x2 x3 x4 x5 x6 x7 x8 x9 x10 (Read.lidx_main_v52 i k) * x11 (Read.ridx_main_v52 i k)) k)
      = (∑ k : Fin 64, (fun k => Read.val_main_v51 (F := Ideal) x0 x1 x2 x3 x4 x5 x6 x7 x8 x9 x10 (Read.lidx_main_v52 i k) * x11 (Read.ridx_main_v52 i k)) (Fin.castAdd 16 k)) + ∑ k : Fin 16, (fun k => Read.val_main_v51 (F := Ideal) x0 x1 x2 x3 x4 x5 x6 x7 x8 x9 x10 (Read.lidx_main_v52 i k) * x11 (Read.ridx_main_v52 i k)) (Fin.natAdd 64 k) :=
    Fin.sum_univ_add (M := EReal) (a := 64) (b := 16) (fun k => Read.val_main_v51 (F := Ideal) x0 x1 x2 x3 x4 x5 x6 x7 x8 x9 x10 (Read.lidx_main_v52 i k) * x11 (Read.ridx_main_v52 i k))
  refine Eq.trans ?_ (congrArg (fun s : EReal => s + x12 (Read.idx_main_v53 (Read.idx_main_v54 i))) hs.symm)
  unfold edgeMsg
  refine congrArg₂ (· + ·) (congrArg₂ (· + ·) (Finset.sum_congr rfl fun k _ => ?_) (Finset.sum_congr rfl fun k _ => ?_)) ?_
  · refine congrArg₂ (· * ·) ?_ ?_
    · unfold Read.val_main_v51
      symm
      exact concatenate_pair_apply_left 1 _ _ _ (Read.lidx_main_v52 i (Fin.castAdd 16 k)) (by rfl) (ix2 (r0 i) k)
        (fun b => by match b with | ⟨0, _⟩ => rfl | ⟨1, _⟩ => rfl)
    · refine (slice2_axis0_apply 0 x11 h0 k (c1 i) ⟨k.val, by have := k.isLt; omega⟩ (Nat.zero_add _).symm).trans ?_
      exact congrArg x11 (funext fun a => by match a with | ⟨0, _⟩ => rfl | ⟨1, _⟩ => rfl)
  · refine congrArg₂ (· * ·) ?_ ?_
    · unfold Read.val_main_v51
      symm
      exact concatenate_pair_apply_right 1 _ _ _ (Read.lidx_main_v52 i (Fin.natAdd 64 k)) (by rfl) (by rfl) (ix2 (r0 i) k)
        (fun b hb => by match b with | ⟨0, _⟩ => rfl | ⟨1, _⟩ => exact absurd rfl hb)
        (by show k.val + 64 = 64 + k.val; omega)
    · refine (slice2_axis0_apply 64 x11 h64 k (c1 i) ⟨64 + k.val, by have := k.isLt; omega⟩ rfl).trans ?_
      exact congrArg x11 (funext fun a => by match a with | ⟨0, _⟩ => rfl | ⟨1, _⟩ => rfl)
  · refine (shapeCast_a_1a_apply x12 hr (0 : Fin 1) (c1 i)).trans ?_
    exact congrArg x12 (funext fun a => by match a with | ⟨0, _⟩ => rfl)

/-- A row parameter reshaped to one row and read at column `j` is the parameter at `j` — which is also what the
    reference's two broadcasts of it read there. -/
theorem row_param (x : (⟨S64, .f32⟩ : BufTy).Contents (Elt Ideal)) (hr : S64.ShapeCasts S1x64) (i : S50000x64.Idx) :
    shapeCast S1x64 x hr (ix2 (0 : Fin 1) (c1 i)) = x (Read.idx_main_v20 (Read.idx_main_v21 i)) :=
  (shapeCast_a_1a_apply x hr (0 : Fin 1) (c1 i)).trans
    (congrArg x (funext fun a => by match a with | ⟨0, _⟩ => rfl))

/-- The first layer's node update: both sides apply the same operations in the same order to the node's own linear
    map plus the summed messages; the reference broadcasts each row parameter along the nodes. -/
theorem upd1 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S80x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) (hr : S64.ShapeCasts S1x64) :
    nodeNormRelu x0 x5 (shapeCast S1x64 x6 hr) (Read.val_main_v18 x0 x1 x2 x3 x4) (shapeCast S1x64 x7 hr) (shapeCast S1x64 x8 hr)
        (shapeCast S1x64 x9 hr) (shapeCast S1x64 x10 hr)
      = Read.val_main_v39 x0 x1 x2 x3 x4 x5 x6 x7 x8 x9 x10 := by
  funext i
  simp only [Read.val_main_v39_apply, Read.val_main_v38_apply, Read.val_main_v37_apply, Read.val_main_v36_apply,
    Read.val_main_v35_apply, Read.val_main_v34_apply, Read.val_main_v33_apply, Read.val_main_v32_apply,
    Read.val_main_v31_apply, Read.val_main_v30_apply, Read.val_main_v29_apply, Read.val_main_v28_apply,
    Read.val_main_v27_apply, Read.val_main_v26_apply, Read.val_main_v25_apply, Read.val_main_v24_apply,
    Read.val_main_v23_apply, Read.val_main_v22_apply, Read.val_main_v21_apply, Read.val_main_v20_apply,
    Read.val_main_v19_apply, Read.val_main_call0_v0_apply]
  unfold nodeNormRelu nodeOut
  rw [row_param x6 hr i, row_param x7 hr i, row_param x8 hr i, row_param x9 hr i, row_param x10 hr i]
  have hdot : (∑ k : Fin 64, x0 (ix2 (r0 i) k) * x5 (ix2 k (c1 i)))
      = ∑ k : Fin 64, x0 (Read.lidx_main_v19 i k) * x5 (Read.ridx_main_v19 i k) :=
    Finset.sum_congr rfl fun k _ => congrArg₂ (· * ·)
      (congrArg x0 (funext fun a => by match a with | ⟨0, _⟩ => rfl | ⟨1, _⟩ => rfl))
      (congrArg x5 (funext fun a => by match a with | ⟨0, _⟩ => rfl | ⟨1, _⟩ => rfl))
  rw [hdot]
  rfl

/-- A row parameter of the second layer, reshaped and read at a column. -/
theorem row_param2 (x : (⟨S32, .f32⟩ : BufTy).Contents (Elt Ideal)) (hr : S32.ShapeCasts S1x32) (i : S50000x32.Idx) :
    shapeCast S1x32 x hr (ix2 (0 : Fin 1) (c1 i)) = x (Read.idx_main_v60 (Read.idx_main_v61 i)) :=
  (shapeCast_a_1a_apply x hr (0 : Fin 1) (c1 i)).trans
    (congrArg x (funext fun a => by match a with | ⟨0, _⟩ => rfl))

/-- The second layer's node update: the node's own linear map of the first layer's features, plus the bias, plus the
    summed messages, on both sides. -/
theorem upd2 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S80x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) (x11 : (⟨S80x32, .f32⟩ : BufTy).Contents (Elt Ideal)) (x12 : (⟨S32, .f32⟩ : BufTy).Contents (Elt Ideal)) (x13 : (⟨S64x32, .f32⟩ : BufTy).Contents (Elt Ideal)) (x14 : (⟨S32, .f32⟩ : BufTy).Contents (Elt Ideal)) (hr : S32.ShapeCasts S1x32) :
    nodeOut (Read.val_main_v39 x0 x1 x2 x3 x4 x5 x6 x7 x8 x9 x10) x13 (shapeCast S1x32 x14 hr) (Read.val_main_v58 x0 x1 x2 x3 x4 x5 x6 x7 x8 x9 x10 x11 x12)
      = Read.val_main_v63 x0 x1 x2 x3 x4 x5 x6 x7 x8 x9 x10 x11 x12 x13 x14 := by
  funext i
  simp only [Read.val_main_v63_apply, Read.val_main_v62_apply, Read.val_main_v61_apply, Read.val_main_v60_apply,
    Read.val_main_v59_apply]
  unfold nodeOut
  rw [row_param2 x14 hr i]
  have hdot : (∑ k : Fin 64, Read.val_main_v39 (F := Ideal) x0 x1 x2 x3 x4 x5 x6 x7 x8 x9 x10 (ix2 (r0 i) k) * x13 (ix2 k (c1 i)))
      = ∑ k : Fin 64, Read.val_main_v39 (F := Ideal) x0 x1 x2 x3 x4 x5 x6 x7 x8 x9 x10 (Read.lidx_main_v59 i k) * x13 (Read.ridx_main_v59 i k) :=
    Finset.sum_congr rfl fun k _ => congrArg₂ (· * ·)
      (congrArg _ (funext fun a => by match a with | ⟨0, _⟩ => rfl | ⟨1, _⟩ => rfl))
      (congrArg x13 (funext fun a => by match a with | ⟨0, _⟩ => rfl | ⟨1, _⟩ => rfl))
  rw [hdot]
  rfl

end Cert.Bridge

end
-- ==== Proof.Composition.lean ====
/-
  The idealized kernel program's result as the reference's function of the arguments.

  The program alternates host stretches and kernel launches; its memory at each boundary is the generated chain of
  valuations `W0 … W8`.  Walking the chain forward, every array a later step reads is named as a function of the
  fifteen argument arrays: the gathered rows, the messages (launch 0), their sum over incoming edges, the first
  layer's features (launch 1), and the same again for the second layer (launches 2 and 3).  The gather of source rows
  and the sum over incoming edges are the reference's own operations on equal operands; the four launches are the
  closed forms of their modules, joined to the reference's stages by the dense-part equations.
-/
import proofs.«109759_j82265803588044_2_alg».proof.Proof.KernelRun
import proofs.«109759_j82265803588044_2_alg».proof.Proof.EdgeMsg0
import proofs.«109759_j82265803588044_2_alg».proof.Proof.NodeUpdate1
import proofs.«109759_j82265803588044_2_alg».proof.Proof.EdgeMsg2
import proofs.«109759_j82265803588044_2_alg».proof.Proof.NodeUpdate3
import proofs.«109759_j82265803588044_2_alg».proof.Proof.DenseBridge
import Idealize.ShloMosaic.Lib.StableHlo.Run

set_option maxRecDepth 16384

noncomputable section

namespace Cert.Compose

open Cert.KernelIdeal Cert.KernelIdeal.Gen Cert.Gnn
open Cert.ReferenceIdeal (Read.val_main_v3 Read.val_main_v10 Read.val_main_v15 Read.val_main_v18 Read.val_main_v39 Read.val_main_v43
  Read.val_main_v49 Read.val_main_v50 Read.val_main_v55 Read.val_main_v58 Read.val_main_v63)
open Idealize.ShloMosaic Idealize.ShloMosaic.TcCoe Idealize.ShloMosaic.StableHlo Idealize.SL.Sem

/-! ## The host stretches, at any contents -/

-- stretch 0: the edge endpoints, the gather of the source rows, the weight's two parts, the bias as a row
theorem s0_v10 (W : Valuation τ sig (Elt Ideal)) :
    StableHlo.after hostOps0 W (Proc.devRef .tc main_v10) = Read.val_main_v10 (W (Proc.devRef .tc main_arg0)) (W (Proc.devRef .tc main_arg1)) := by
  dsimp only [hostOps0]; after_results; rfl
theorem s0_v3 (W : Valuation τ sig (Elt Ideal)) :
    StableHlo.after hostOps0 W (Proc.devRef .tc main_v3) = Read.val_main_v3 (W (Proc.devRef .tc main_arg1)) := by
  dsimp only [hostOps0]; after_results; rfl
theorem s0_v11 (W : Valuation τ sig (Elt Ideal)) :
    StableHlo.after hostOps0 W (Proc.devRef .tc main_v11) = extractStridedSlice S64x64 ![0, 0] (W (Proc.devRef .tc main_arg3)) slices_S80x64_S64x64_0_0 := by
  dsimp only [hostOps0]; after_results
theorem s0_v12 (W : Valuation τ sig (Elt Ideal)) :
    StableHlo.after hostOps0 W (Proc.devRef .tc main_v12) = extractStridedSlice S16x64 ![64, 0] (W (Proc.devRef .tc main_arg3)) slices_S80x64_S16x64_64_0 := by
  dsimp only [hostOps0]; after_results
theorem s0_v13 (W : Valuation τ sig (Elt Ideal)) :
    StableHlo.after hostOps0 W (Proc.devRef .tc main_v13) = shapeCast S1x64 (W (Proc.devRef .tc main_arg4)) shapeCasts_S64_S1x64 := by
  dsimp only [hostOps0]; after_results; rfl
theorem s0_arg0 (W : Valuation τ sig (Elt Ideal)) : StableHlo.after hostOps0 W (Proc.devRef .tc main_arg0) = W (Proc.devRef .tc main_arg0) := by
  dsimp only [hostOps0]; after_results
theorem s0_arg1 (W : Valuation τ sig (Elt Ideal)) : StableHlo.after hostOps0 W (Proc.devRef .tc main_arg1) = W (Proc.devRef .tc main_arg1) := by
  dsimp only [hostOps0]; after_results
theorem s0_arg2 (W : Valuation τ sig (Elt Ideal)) : StableHlo.after hostOps0 W (Proc.devRef .tc main_arg2) = W (Proc.devRef .tc main_arg2) := by
  dsimp only [hostOps0]; after_results
theorem s0_arg5 (W : Valuation τ sig (Elt Ideal)) : StableHlo.after hostOps0 W (Proc.devRef .tc main_arg5) = W (Proc.devRef .tc main_arg5) := by
  dsimp only [hostOps0]; after_results
theorem s0_arg6 (W : Valuation τ sig (Elt Ideal)) : StableHlo.after hostOps0 W (Proc.devRef .tc main_arg6) = W (Proc.devRef .tc main_arg6) := by
  dsimp only [hostOps0]; after_results
theorem s0_arg7 (W : Valuation τ sig (Elt Ideal)) : StableHlo.after hostOps0 W (Proc.devRef .tc main_arg7) = W (Proc.devRef .tc main_arg7) := by
  dsimp only [hostOps0]; after_results
theorem s0_arg8 (W : Valuation τ sig (Elt Ideal)) : StableHlo.after hostOps0 W (Proc.devRef .tc main_arg8) = W (Proc.devRef .tc main_arg8) := by
  dsimp only [hostOps0]; after_results
theorem s0_arg9 (W : Valuation τ sig (Elt Ideal)) : StableHlo.after hostOps0 W (Proc.devRef .tc main_arg9) = W (Proc.devRef .tc main_arg9) := by
  dsimp only [hostOps0]; after_results
theorem s0_arg10 (W : Valuation τ sig (Elt Ideal)) : StableHlo.after hostOps0 W (Proc.devRef .tc main_arg10) = W (Proc.devRef .tc main_arg10) := by
  dsimp only [hostOps0]; after_results
theorem s0_arg11 (W : Valuation τ sig (Elt Ideal)) : StableHlo.after hostOps0 W (Proc.devRef .tc main_arg11) = W (Proc.devRef .tc main_arg11) := by
  dsimp only [hostOps0]; after_results
theorem s0_arg12 (W : Valuation τ sig (Elt Ideal)) : StableHlo.after hostOps0 W (Proc.devRef .tc main_arg12) = W (Proc.devRef .tc main_arg12) := by
  dsimp only [hostOps0]; after_results
theorem s0_arg13 (W : Valuation τ sig (Elt Ideal)) : StableHlo.after hostOps0 W (Proc.devRef .tc main_arg13) = W (Proc.devRef .tc main_arg13) := by
  dsimp only [hostOps0]; after_results
theorem s0_arg14 (W : Valuation τ sig (Elt Ideal)) : StableHlo.after hostOps0 W (Proc.devRef .tc main_arg14) = W (Proc.devRef .tc main_arg14) := by
  dsimp only [hostOps0]; after_results

-- stretch 1: the messages summed over incoming edges, the first layer's row parameters as rows
theorem s1_v17 (W : Valuation τ sig (Elt Ideal)) :
    StableHlo.after hostOps1 W (Proc.devRef .tc main_v17)
      = Host.scatterAdd (F := Ideal) scatter_S50000x64_S800000x1_S800000x64_1_0_0_1
          (broadcastInDim S50000x64 ![] bcast_S_S50000x64 (constant (F := Ideal) S_ .f32 0x00000000#32))
          (broadcastInDim S800000x1 ![0] bcast_S800000_S800000x1_0 (W (Proc.devRef .tc main_v3))) (W (Proc.devRef .tc main_v14)) := by
  dsimp only [hostOps1]; after_results
theorem s1_v18 (W : Valuation τ sig (Elt Ideal)) :
    StableHlo.after hostOps1 W (Proc.devRef .tc main_v18) = shapeCast S1x64 (W (Proc.devRef .tc main_arg6)) shapeCasts_S64_S1x64 := by
  dsimp only [hostOps1]; after_results; rfl
theorem s1_v19 (W : Valuation τ sig (Elt Ideal)) :
    StableHlo.after hostOps1 W (Proc.devRef .tc main_v19) = shapeCast S1x64 (W (Proc.devRef .tc main_arg7)) shapeCasts_S64_S1x64 := by
  dsimp only [hostOps1]; after_results; rfl
theorem s1_v20 (W : Valuation τ sig (Elt Ideal)) :
    StableHlo.after hostOps1 W (Proc.devRef .tc main_v20) = shapeCast S1x64 (W (Proc.devRef .tc main_arg8)) shapeCasts_S64_S1x64 := by
  dsimp only [hostOps1]; after_results; rfl
theorem s1_v21 (W : Valuation τ sig (Elt Ideal)) :
    StableHlo.after hostOps1 W (Proc.devRef .tc main_v21) = shapeCast S1x64 (W (Proc.devRef .tc main_arg9)) shapeCasts_S64_S1x64 := by
  dsimp only [hostOps1]; after_results; rfl
theorem s1_v22 (W : Valuation τ sig (Elt Ideal)) :
    StableHlo.after hostOps1 W (Proc.devRef .tc main_v22) = shapeCast S1x64 (W (Proc.devRef .tc main_arg10)) shapeCasts_S64_S1x64 := by
  dsimp only [hostOps1]; after_results; rfl
theorem s1_arg0 (W : Valuation τ sig (Elt Ideal)) : StableHlo.after hostOps1 W (Proc.devRef .tc main_arg0) = W (Proc.devRef .tc main_arg0) := by
  dsimp only [hostOps1]; after_results
theorem s1_arg1 (W : Valuation τ sig (Elt Ideal)) : StableHlo.after hostOps1 W (Proc.devRef .tc main_arg1) = W (Proc.devRef .tc main_arg1) := by
  dsimp only [hostOps1]; after_results
theorem s1_arg2 (W : Valuation τ sig (Elt Ideal)) : StableHlo.after hostOps1 W (Proc.devRef .tc main_arg2) = W (Proc.devRef .tc main_arg2) := by
  dsimp only [hostOps1]; after_results
theorem s1_arg5 (W : Valuation τ sig (Elt Ideal)) : StableHlo.after hostOps1 W (Proc.devRef .tc main_arg5) = W (Proc.devRef .tc main_arg5) := by
  dsimp only [hostOps1]; after_results
theorem s1_arg11 (W : Valuation τ sig (Elt Ideal)) : StableHlo.after hostOps1 W (Proc.devRef .tc main_arg11) = W (Proc.devRef .tc main_arg11) := by
  dsimp only [hostOps1]; after_results
theorem s1_arg12 (W : Valuation τ sig (Elt Ideal)) : StableHlo.after hostOps1 W (Proc.devRef .tc main_arg12) = W (Proc.devRef .tc main_arg12) := by
  dsimp only [hostOps1]; after_results
theorem s1_arg13 (W : Valuation τ sig (Elt Ideal)) : StableHlo.after hostOps1 W (Proc.devRef .tc main_arg13) = W (Proc.devRef .tc main_arg13) := by
  dsimp only [hostOps1]; after_results
theorem s1_arg14 (W : Valuation τ sig (Elt Ideal)) : StableHlo.after hostOps1 W (Proc.devRef .tc main_arg14) = W (Proc.devRef .tc main_arg14) := by
  dsimp only [hostOps1]; after_results

-- stretch 2: the gather of the first layer's features, the second weight's two parts, the bias as a row
theorem s2_v34 (W : Valuation τ sig (Elt Ideal)) :
    StableHlo.after hostOps2 W (Proc.devRef .tc main_v34)
      = Host.gather gather_S50000x64_S800000x1_S800000x64_1_0_n_n_0_1_164 (W (Proc.devRef .tc main_v23)) (Read.val_main_v49 (W (Proc.devRef .tc main_arg1))) := by
  dsimp only [hostOps2]; after_results; rfl
theorem s2_v27 (W : Valuation τ sig (Elt Ideal)) :
    StableHlo.after hostOps2 W (Proc.devRef .tc main_v27) = Read.val_main_v43 (W (Proc.devRef .tc main_arg1)) := by
  dsimp only [hostOps2]; after_results; rfl
theorem s2_v35 (W : Valuation τ sig (Elt Ideal)) :
    StableHlo.after hostOps2 W (Proc.devRef .tc main_v35) = extractStridedSlice S64x32 ![0, 0] (W (Proc.devRef .tc main_arg11)) slices_S80x32_S64x32_0_0 := by
  dsimp only [hostOps2]; after_results
theorem s2_v36 (W : Valuation τ sig (Elt Ideal)) :
    StableHlo.after hostOps2 W (Proc.devRef .tc main_v36) = extractStridedSlice S16x32 ![64, 0] (W (Proc.devRef .tc main_arg11)) slices_S80x32_S16x32_64_0 := by
  dsimp only [hostOps2]; after_results
theorem s2_v37 (W : Valuation τ sig (Elt Ideal)) :
    StableHlo.after hostOps2 W (Proc.devRef .tc main_v37) = shapeCast S1x32 (W (Proc.devRef .tc main_arg12)) shapeCasts_S32_S1x32 := by
  dsimp only [hostOps2]; after_results; rfl
theorem s2_v23 (W : Valuation τ sig (Elt Ideal)) : StableHlo.after hostOps2 W (Proc.devRef .tc main_v23) = W (Proc.devRef .tc main_v23) := by
  dsimp only [hostOps2]; after_results
theorem s2_arg2 (W : Valuation τ sig (Elt Ideal)) : StableHlo.after hostOps2 W (Proc.devRef .tc main_arg2) = W (Proc.devRef .tc main_arg2) := by
  dsimp only [hostOps2]; after_results
theorem s2_arg13 (W : Valuation τ sig (Elt Ideal)) : StableHlo.after hostOps2 W (Proc.devRef .tc main_arg13) = W (Proc.devRef .tc main_arg13) := by
  dsimp only [hostOps2]; after_results
theorem s2_arg14 (W : Valuation τ sig (Elt Ideal)) : StableHlo.after hostOps2 W (Proc.devRef .tc main_arg14) = W (Proc.devRef .tc main_arg14) := by
  dsimp only [hostOps2]; after_results

-- stretch 3: the second layer's messages summed over incoming edges, its bias as a row
theorem s3_v41 (W : Valuation τ sig (Elt Ideal)) :
    StableHlo.after hostOps3 W (Proc.devRef .tc main_v41)
      = Host.scatterAdd (F := Ideal) scatter_S50000x32_S800000x1_S800000x32_1_0_0_1
          (broadcastInDim S50000x32 ![] bcast_S_S50000x32 (constant (F := Ideal) S_ .f32 0x00000000#32))
          (broadcastInDim S800000x1 ![0] bcast_S800000_S800000x1_0 (W (Proc.devRef .tc main_v27))) (W (Proc.devRef .tc main_v38)) := by
  dsimp only [hostOps3]; after_results
theorem s3_v42 (W : Valuation τ sig (Elt Ideal)) :
    StableHlo.after hostOps3 W (Proc.devRef .tc main_v42) = shapeCast S1x32 (W (Proc.devRef .tc main_arg14)) shapeCasts_S32_S1x32 := by
  dsimp only [hostOps3]; after_results; rfl
theorem s3_v23 (W : Valuation τ sig (Elt Ideal)) : StableHlo.after hostOps3 W (Proc.devRef .tc main_v23) = W (Proc.devRef .tc main_v23) := by
  dsimp only [hostOps3]; after_results
theorem s3_arg13 (W : Valuation τ sig (Elt Ideal)) : StableHlo.after hostOps3 W (Proc.devRef .tc main_arg13) = W (Proc.devRef .tc main_arg13) := by
  dsimp only [hostOps3]; after_results

/-! ## The chain of boundaries, from the launch memory -/

variable (m : (ℓ : Loc nD τ sig) → Buf (Elt Ideal) ℓ) (ρ : Dev nD → PrngReg) (c : Dev nD)

-- after stretch 0
theorem w1_arg0 : W1 m ρ c (Proc.devRef .tc main_arg0) = (m ((c : Thread nD τ).loc main_arg0)) := s0_arg0 (W0 m ρ c)
theorem w1_arg1 : W1 m ρ c (Proc.devRef .tc main_arg1) = (m ((c : Thread nD τ).loc main_arg1)) := s0_arg1 (W0 m ρ c)
theorem w1_arg2 : W1 m ρ c (Proc.devRef .tc main_arg2) = (m ((c : Thread nD τ).loc main_arg2)) := s0_arg2 (W0 m ρ c)
theorem w1_arg5 : W1 m ρ c (Proc.devRef .tc main_arg5) = (m ((c : Thread nD τ).loc main_arg5)) := s0_arg5 (W0 m ρ c)
theorem w1_arg6 : W1 m ρ c (Proc.devRef .tc main_arg6) = (m ((c : Thread nD τ).loc main_arg6)) := s0_arg6 (W0 m ρ c)
theorem w1_arg7 : W1 m ρ c (Proc.devRef .tc main_arg7) = (m ((c : Thread nD τ).loc main_arg7)) := s0_arg7 (W0 m ρ c)
theorem w1_arg8 : W1 m ρ c (Proc.devRef .tc main_arg8) = (m ((c : Thread nD τ).loc main_arg8)) := s0_arg8 (W0 m ρ c)
theorem w1_arg9 : W1 m ρ c (Proc.devRef .tc main_arg9) = (m ((c : Thread nD τ).loc main_arg9)) := s0_arg9 (W0 m ρ c)
theorem w1_arg10 : W1 m ρ c (Proc.devRef .tc main_arg10) = (m ((c : Thread nD τ).loc main_arg10)) := s0_arg10 (W0 m ρ c)
theorem w1_arg11 : W1 m ρ c (Proc.devRef .tc main_arg11) = (m ((c : Thread nD τ).loc main_arg11)) := s0_arg11 (W0 m ρ c)
theorem w1_arg12 : W1 m ρ c (Proc.devRef .tc main_arg12) = (m ((c : Thread nD τ).loc main_arg12)) := s0_arg12 (W0 m ρ c)
theorem w1_arg13 : W1 m ρ c (Proc.devRef .tc main_arg13) = (m ((c : Thread nD τ).loc main_arg13)) := s0_arg13 (W0 m ρ c)
theorem w1_arg14 : W1 m ρ c (Proc.devRef .tc main_arg14) = (m ((c : Thread nD τ).loc main_arg14)) := s0_arg14 (W0 m ρ c)
theorem w1_v10 : W1 m ρ c (Proc.devRef .tc main_v10) = Read.val_main_v10 (m ((c : Thread nD τ).loc main_arg0)) (m ((c : Thread nD τ).loc main_arg1)) := s0_v10 (W0 m ρ c)
theorem w1_v3 : W1 m ρ c (Proc.devRef .tc main_v3) = Read.val_main_v3 (m ((c : Thread nD τ).loc main_arg1)) := s0_v3 (W0 m ρ c)
theorem w1_v11 : W1 m ρ c (Proc.devRef .tc main_v11) = extractStridedSlice S64x64 ![0, 0] (m ((c : Thread nD τ).loc main_arg3)) slices_S80x64_S64x64_0_0 := s0_v11 (W0 m ρ c)
theorem w1_v12 : W1 m ρ c (Proc.devRef .tc main_v12) = extractStridedSlice S16x64 ![64, 0] (m ((c : Thread nD τ).loc main_arg3)) slices_S80x64_S16x64_64_0 := s0_v12 (W0 m ρ c)
theorem w1_v13 : W1 m ρ c (Proc.devRef .tc main_v13) = shapeCast S1x64 (m ((c : Thread nD τ).loc main_arg4)) shapeCasts_S64_S1x64 := s0_v13 (W0 m ρ c)

-- after launch 0: its output holds the messages; an input window's array and every other buffer are as entered
theorem w2_arg0 : W2 m ρ c (Proc.devRef .tc main_arg0) = (m ((c : Thread nD τ).loc main_arg0)) := (W2_of_ne m ρ c main_arg0 (by decide)).trans (w1_arg0 m ρ c)
theorem w2_arg1 : W2 m ρ c (Proc.devRef .tc main_arg1) = (m ((c : Thread nD τ).loc main_arg1)) := (W2_of_ne m ρ c main_arg1 (by decide)).trans (w1_arg1 m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)
theorem w2_arg8 : W2 m ρ c (Proc.devRef .tc main_arg8) = (m ((c : Thread nD τ).loc main_arg8)) := (W2_of_ne m ρ c main_arg8 (by decide)).trans (w1_arg8 m ρ c)
theorem w2_arg9 : W2 m ρ c (Proc.devRef .tc main_arg9) = (m ((c : Thread nD τ).loc main_arg9)) := (W2_of_ne m ρ c main_arg9 (by decide)).trans (w1_arg9 m ρ c)
theorem w2_arg10 : W2 m ρ c (Proc.devRef .tc main_arg10) = (m ((c : Thread nD τ).loc main_arg10)) := (W2_of_ne m ρ c main_arg10 (by decide)).trans (w1_arg10 m ρ c)
theorem w2_arg11 : W2 m ρ c (Proc.devRef .tc main_arg11) = (m ((c : Thread nD τ).loc main_arg11)) := (W2_of_ne m ρ c main_arg11 (by decide)).trans (w1_arg11 m ρ c)
theorem w2_arg12 : W2 m ρ c (Proc.devRef .tc main_arg12) = (m ((c : Thread nD τ).loc main_arg12)) := (W2_of_ne m ρ c main_arg12 (by decide)).trans (w1_arg12 m ρ c)
theorem w2_arg13 : W2 m ρ c (Proc.devRef .tc main_arg13) = (m ((c : Thread nD τ).loc main_arg13)) := (W2_of_ne m ρ c main_arg13 (by decide)).trans (w1_arg13 m ρ c)
theorem w2_arg14 : W2 m ρ c (Proc.devRef .tc main_arg14) = (m ((c : Thread nD τ).loc main_arg14)) := (W2_of_ne m ρ c main_arg14 (by decide)).trans (w1_arg14 m ρ c)
theorem w2_arg2 : W2 m ρ c (Proc.devRef .tc main_arg2) = (m ((c : Thread nD τ).loc main_arg2)) :=
  (W2_arr m ρ c 1).trans (((dat0 (V1 m ρ) c).arrAt_in 1 rfl _).trans ((A_eq0 (V1 m ρ) c 1).trans (w1_arg2 m ρ c)))
theorem w2_v3 : W2 m ρ c (Proc.devRef .tc main_v3) = Read.val_main_v3 (m ((c : Thread nD τ).loc main_arg1)) := (W2_of_ne m ρ c main_v3 (by decide)).trans (w1_v3 m ρ c)
theorem w2_v14 : W2 m ρ c (Proc.devRef .tc main_v14) = Read.val_main_v15 (m ((c : Thread nD τ).loc main_arg0)) (m ((c : Thread nD τ).loc main_arg1)) (m ((c : Thread nD τ).loc main_arg2)) (m ((c : Thread nD τ).loc main_arg3)) (m ((c : Thread nD τ).loc main_arg4)) := by
  refine ((W2_arr m ρ c 5).trans (EdgeMsg0.result (V1 m ρ) c)).trans ?_
  show edgeMsg (W1 m ρ c (Proc.devRef .tc main_v10)) (W1 m ρ c (Proc.devRef .tc main_arg2)) (W1 m ρ c (Proc.devRef .tc main_v11)) (W1 m ρ c (Proc.devRef .tc main_v12)) (W1 m ρ c (Proc.devRef .tc main_v13)) = _
  rw [w1_v10, w1_arg2, w1_v11, w1_v12, w1_v13]
  exact Cert.Bridge.msg1 (m ((c : Thread nD τ).loc main_arg0)) (m ((c : Thread nD τ).loc main_arg1)) (m ((c : Thread nD τ).loc main_arg2)) (m ((c : Thread nD τ).loc main_arg3)) (m ((c : Thread nD τ).loc main_arg4)) _ _ _

-- after stretch 1
theorem w3_arg0 : W3 m ρ c (Proc.devRef .tc main_arg0) = (m ((c : Thread nD τ).loc main_arg0)) := (s1_arg0 (W2 m ρ c)).trans (w2_arg0 m ρ c)
theorem w3_arg1 : W3 m ρ c (Proc.devRef .tc main_arg1) = (m ((c : Thread nD τ).loc main_arg1)) := (s1_arg1 (W2 m ρ c)).trans (w2_arg1 m ρ c)
theorem w3_arg2 : W3 m ρ c (Proc.devRef .tc main_arg2) = (m ((c : Thread nD τ).loc main_arg2)) := (s1_arg2 (W2 m ρ c)).trans (w2_arg2 m ρ c)
theorem w3_arg5 : W3 m ρ c (Proc.devRef .tc main_arg5) = (m ((c : Thread nD τ).loc main_arg5)) := (s1_arg5 (W2 m ρ c)).trans (w2_arg5 m ρ c)
theorem w3_arg11 : W3 m ρ c (Proc.devRef .tc main_arg11) = (m ((c : Thread nD τ).loc main_arg11)) := (s1_arg11 (W2 m ρ c)).trans (w2_arg11 m ρ c)
theorem w3_arg12 : W3 m ρ c (Proc.devRef .tc main_arg12) = (m ((c : Thread nD τ).loc main_arg12)) := (s1_arg12 (W2 m ρ c)).trans (w2_arg12 m ρ c)
theorem w3_arg13 : W3 m ρ c (Proc.devRef .tc main_arg13) = (m ((c : Thread nD τ).loc main_arg13)) := (s1_arg13 (W2 m ρ c)).trans (w2_arg13 m ρ c)
theorem w3_arg14 : W3 m ρ c (Proc.devRef .tc main_arg14) = (m ((c : Thread nD τ).loc main_arg14)) := (s1_arg14 (W2 m ρ c)).trans (w2_arg14 m ρ c)
theorem w3_v17 : W3 m ρ c (Proc.devRef .tc main_v17) = Read.val_main_v18 (m ((c : Thread nD τ).loc main_arg0)) (m ((c : Thread nD τ).loc main_arg1)) (m ((c : Thread nD τ).loc main_arg2)) (m ((c : Thread nD τ).loc main_arg3)) (m ((c : Thread nD τ).loc main_arg4)) := by
  refine (s1_v17 (W2 m ρ c)).trans ?_
  rw [w2_v3, w2_v14]
  rfl
theorem w3_v18 : W3 m ρ c (Proc.devRef .tc main_v18) = shapeCast S1x64 (m ((c : Thread nD τ).loc main_arg6)) shapeCasts_S64_S1x64 :=
  (s1_v18 (W2 m ρ c)).trans (by rw [w2_arg6])
theorem w3_v19 : W3 m ρ c (Proc.devRef .tc main_v19) = shapeCast S1x64 (m ((c : Thread nD τ).loc main_arg7)) shapeCasts_S64_S1x64 :=
  (s1_v19 (W2 m ρ c)).trans (by rw [w2_arg7])
theorem w3_v20 : W3 m ρ c (Proc.devRef .tc main_v20) = shapeCast S1x64 (m ((c : Thread nD τ).loc main_arg8)) shapeCasts_S64_S1x64 :=
  (s1_v20 (W2 m ρ c)).trans (by rw [w2_arg8])
theorem w3_v21 : W3 m ρ c (Proc.devRef .tc main_v21) = shapeCast S1x64 (m ((c : Thread nD τ).loc main_arg9)) shapeCasts_S64_S1x64 :=
  (s1_v21 (W2 m ρ c)).trans (by rw [w2_arg9])
theorem w3_v22 : W3 m ρ c (Proc.devRef .tc main_v22) = shapeCast S1x64 (m ((c : Thread nD τ).loc main_arg10)) shapeCasts_S64_S1x64 :=
  (s1_v22 (W2 m ρ c)).trans (by rw [w2_arg10])

-- after launch 1: its output holds the first layer's features
theorem w4_arg1 : W4 m ρ c (Proc.devRef .tc main_arg1) = (m ((c : Thread nD τ).loc main_arg1)) := (W4_of_ne m ρ c main_arg1 (by decide)).trans (w3_arg1 m ρ c)
theorem w4_arg2 : W4 m ρ c (Proc.devRef .tc main_arg2) = (m ((c : Thread nD τ).loc main_arg2)) := (W4_of_ne m ρ c main_arg2 (by decide)).trans (w3_arg2 m ρ c)
theorem w4_arg11 : W4 m ρ c (Proc.devRef .tc main_arg11) = (m ((c : Thread nD τ).loc main_arg11)) := (W4_of_ne m ρ c main_arg11 (by decide)).trans (w3_arg11 m ρ c)
theorem w4_arg12 : W4 m ρ c (Proc.devRef .tc main_arg12) = (m ((c : Thread nD τ).loc main_arg12)) := (W4_of_ne m ρ c main_arg12 (by decide)).trans (w3_arg12 m ρ c)
theorem w4_arg13 : W4 m ρ c (Proc.devRef .tc main_arg13) = (m ((c : Thread nD τ).loc main_arg13)) := (W4_of_ne m ρ c main_arg13 (by decide)).trans (w3_arg13 m ρ c)
theorem w4_arg14 : W4 m ρ c (Proc.devRef .tc main_arg14) = (m ((c : Thread nD τ).loc main_arg14)) := (W4_of_ne m ρ c main_arg14 (by decide)).trans (w3_arg14 m ρ c)
theorem w4_v23 : W4 m ρ c (Proc.devRef .tc main_v23) = Read.val_main_v39 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W4_arr m ρ c 8).trans (NodeUpdate1.result (V3 m ρ) c)).trans ?_
  show nodeNormRelu (W3 m ρ c (Proc.devRef .tc main_arg0)) (W3 m ρ c (Proc.devRef .tc main_arg5)) (W3 m ρ c (Proc.devRef .tc main_v18)) (W3 m ρ c (Proc.devRef .tc main_v17))
    (W3 m ρ c (Proc.devRef .tc main_v19)) (W3 m ρ c (Proc.devRef .tc main_v20)) (W3 m ρ c (Proc.devRef .tc main_v21)) (W3 m ρ c (Proc.devRef .tc main_v22)) = _
  rw [w3_arg0, w3_arg5, w3_v18, w3_v17, w3_v19, w3_v20, w3_v21, w3_v22]
  exact Cert.Bridge.upd1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) _

-- after stretch 2
theorem w5_arg2 : W5 m ρ c (Proc.devRef .tc main_arg2) = (m ((c : Thread nD τ).loc main_arg2)) := (s2_arg2 (W4 m ρ c)).trans (w4_arg2 m ρ c)
theorem w5_arg13 : W5 m ρ c (Proc.devRef .tc main_arg13) = (m ((c : Thread nD τ).loc main_arg13)) := (s2_arg13 (W4 m ρ c)).trans (w4_arg13 m ρ c)
theorem w5_arg14 : W5 m ρ c (Proc.devRef .tc main_arg14) = (m ((c : Thread nD τ).loc main_arg14)) := (s2_arg14 (W4 m ρ c)).trans (w4_arg14 m ρ c)
theorem w5_v23 : W5 m ρ c (Proc.devRef .tc main_v23) = Read.val_main_v39 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := (s2_v23 (W4 m ρ c)).trans (w4_v23 m ρ c)
theorem w5_v34 : W5 m ρ c (Proc.devRef .tc main_v34) = Read.val_main_v50 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (s2_v34 (W4 m ρ c)).trans ?_
  rw [w4_v23, w4_arg1]
  rfl
theorem w5_v27 : W5 m ρ c (Proc.devRef .tc main_v27) = Read.val_main_v43 (m ((c : Thread nD τ).loc main_arg1)) := (s2_v27 (W4 m ρ c)).trans (by rw [w4_arg1])
theorem w5_v35 : W5 m ρ c (Proc.devRef .tc main_v35) = extractStridedSlice S64x32 ![0, 0] (m ((c : Thread nD τ).loc main_arg11)) slices_S80x32_S64x32_0_0 :=
  (s2_v35 (W4 m ρ c)).trans (by rw [w4_arg11])
theorem w5_v36 : W5 m ρ c (Proc.devRef .tc main_v36) = extractStridedSlice S16x32 ![64, 0] (m ((c : Thread nD τ).loc main_arg11)) slices_S80x32_S16x32_64_0 :=
  (s2_v36 (W4 m ρ c)).trans (by rw [w4_arg11])
theorem w5_v37 : W5 m ρ c (Proc.devRef .tc main_v37) = shapeCast S1x32 (m ((c : Thread nD τ).loc main_arg12)) shapeCasts_S32_S1x32 :=
  (s2_v37 (W4 m ρ c)).trans (by rw [w4_arg12])

-- after launch 2: its output holds the second layer's messages
theorem w6_arg13 : W6 m ρ c (Proc.devRef .tc main_arg13) = (m ((c : Thread nD τ).loc main_arg13)) := (W6_of_ne m ρ c main_arg13 (by decide)).trans (w5_arg13 m ρ c)
theorem w6_arg14 : W6 m ρ c (Proc.devRef .tc main_arg14) = (m ((c : Thread nD τ).loc main_arg14)) := (W6_of_ne m ρ c main_arg14 (by decide)).trans (w5_arg14 m ρ c)
theorem w6_v23 : W6 m ρ c (Proc.devRef .tc main_v23) = Read.val_main_v39 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := (W6_of_ne m ρ c main_v23 (by decide)).trans (w5_v23 m ρ c)
theorem w6_v27 : W6 m ρ c (Proc.devRef .tc main_v27) = Read.val_main_v43 (m ((c : Thread nD τ).loc main_arg1)) := (W6_of_ne m ρ c main_v27 (by decide)).trans (w5_v27 m ρ c)
theorem w6_v38 : W6 m ρ c (Proc.devRef .tc main_v38) = Read.val_main_v55 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine ((W6_arr m ρ c 5).trans (EdgeMsg2.result (V5 m ρ) c)).trans ?_
  show edgeMsg (W5 m ρ c (Proc.devRef .tc main_v34)) (W5 m ρ c (Proc.devRef .tc main_arg2)) (W5 m ρ c (Proc.devRef .tc main_v35)) (W5 m ρ c (Proc.devRef .tc main_v36)) (W5 m ρ c (Proc.devRef .tc main_v37)) = _
  rw [w5_v34, w5_arg2, w5_v35, w5_v36, w5_v37]
  exact Cert.Bridge.msg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ _ _

-- after stretch 3
theorem w7_arg13 : W7 m ρ c (Proc.devRef .tc main_arg13) = (m ((c : Thread nD τ).loc main_arg13)) := (s3_arg13 (W6 m ρ c)).trans (w6_arg13 m ρ c)
theorem w7_v23 : W7 m ρ c (Proc.devRef .tc main_v23) = Read.val_main_v39 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := (s3_v23 (W6 m ρ c)).trans (w6_v23 m ρ c)
theorem w7_v42 : W7 m ρ c (Proc.devRef .tc main_v42) = shapeCast S1x32 (m ((c : Thread nD τ).loc main_arg14)) shapeCasts_S32_S1x32 := (s3_v42 (W6 m ρ c)).trans (by rw [w6_arg14])
theorem w7_v41 : W7 m ρ c (Proc.devRef .tc main_v41) = Read.val_main_v58 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (s3_v41 (W6 m ρ c)).trans ?_
  rw [w6_v27, w6_v38]
  rfl

/-- THE RESULT ARRAY: what launch 3 leaves in its output window's array is the reference's last stage of the
    fifteen argument arrays. -/
theorem result : (dat3 (V7 m ρ) c).arrAt 4 cfg3.N = Read.val_main_v63 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (NodeUpdate3.result (V7 m ρ) c).trans ?_
  show nodeOut (W7 m ρ c (Proc.devRef .tc main_v23)) (W7 m ρ c (Proc.devRef .tc main_arg13)) (W7 m ρ c (Proc.devRef .tc main_v42)) (W7 m ρ c (Proc.devRef .tc main_v41)) = _
  rw [w7_v23, w7_arg13, w7_v42, w7_v41]
  exact Cert.Bridge.upd2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) _

end Cert.Compose

end
-- ==== Proof.lean ====
/-
  A two-layer graph network, tiled kernels against plain array code, over the extended reals.

  Each layer sends along every edge the message  [x(src e), a(e)] · W + b,  sums the messages over the edges that end
  at a node, and adds the node's own linear map; the first layer then normalises every feature with fixed statistics
  and clips at zero.  The tiled program computes the message as two matrix products — the gathered source rows with the
  first 64 weight rows, the edge features with the last 16 — where the reference multiplies the joined row with the whole
  weight: one sum of 80 products, split at 64.  Everything else is the same operation on both sides: the gather and the
  sum over incoming edges are the same host operations on equal operands, a change of number format is the identity
  on extended reals, and the reciprocal square root is one function.  No step needs the inputs to be finite.

  The pieces: the kernel program's run with its result named (KernelRun), each launch's array as one function of the
  arrays it finds (EdgeMsg0, NodeUpdate1, EdgeMsg2, NodeUpdate3), the dense parts of both arrangements equal entry by
  entry (DenseBridge), and the walk through the program's boundaries that joins them (Composition).
-/
import proofs.«109759_j82265803588044_2_alg».proof.Defs
import proofs.«109759_j82265803588044_2_alg».proof.Proof.Gen.Kernel
import proofs.«109759_j82265803588044_2_alg».proof.Proof.Gen.Kernel.Frame
import proofs.«109759_j82265803588044_2_alg».proof.Proof.Gen.KernelIdeal
import proofs.«109759_j82265803588044_2_alg».proof.Proof.Gen.KernelIdeal.Frame
import proofs.«109759_j82265803588044_2_alg».proof.Proof.Gen.ReferenceIdeal
import proofs.«109759_j82265803588044_2_alg».proof.Proof.Gen.ReferenceIdeal.Run
import proofs.«109759_j82265803588044_2_alg».proof.Proof.Gen.ReferenceIdeal.Read
import proofs.«109759_j82265803588044_2_alg».proof.Proof.Gen.Pre_finite_inputs
import proofs.«109759_j82265803588044_2_alg».proof.Proof.Composition
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Gen.frame m ρ
/-- So does the idealized program. -/
theorem frame_ki : Cert.frame_KernelIdeal := fun m ρ _ => Cert.KernelIdeal.Gen.frame m ρ
/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's last stage of the fifteen argument arrays. -/
theorem algebraic : Cert.algebraic_KernelIdeal_ReferenceIdeal := by
  intro m ρ m' ρ' _ hagree
  refine ⟨fun c => Cert.ReferenceIdeal.Read.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c => ⟨(h c).1.trans (Cert.Compose.result m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.ReferenceIdeal.Read.val_main_v63_eq, e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
